-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v41)) (v1 : (c : Dev Cert.KernelIdeal.nD) → Buf (Elt Ideal) ((c.tc : Thread Cert.KernelIdeal.nD Cert.KernelIdeal.τ).loc Cert.KernelIdeal.main_v28_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_v28_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S1600000 : Shape := ⟨1, ![1600000]⟩
abbrev S256x64 : Shape := ⟨2, ![256, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg6 : FVec F S40 .f32) (main_v13 : IVec S_ 1) (main_v16 : IVec S64x40 1) : IVec S_ 1 :=
  let main_c_5 : IVec S_ 1 := constantI S_ 1 1#1
  let main_v17 : IVec S_ 1 := (fun x v => Host.reduce IntOp.andi x v reducesTo_S64x40_S_d0_1 h_S_) main_v16 main_c_5
  let main_v18 : IVec S_ 1 := andi main_v13 main_v17
  let main_v19 : FVec F S40 .f32 := Host.absf main_arg6
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x256 .f32) (main_arg1 : IVec S1600000 32) (main_arg2 : IVec S1600000 32) (main_arg3 : FVec F S256x64 .f32) (main_arg4 : FVec F S64 .f32) (main_arg5 : FVec F S64x40 .f32) (main_arg6 : FVec F S40 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x64 .f32 := Host.absf main_arg3
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x40 .f32 := Host.absf main_arg5
  let main_cst_4 : FVec F S_ .f32 := constant S_ .f32 0x7F800000#32
  let main_v15 : FVec F S64x40 .f32 := broadcastInDim S64x40 ![] bcast_S_S64x40 main_cst_4
  let main_v16 : IVec S64x40 1 := cmpf .olt main_v14 main_v15
  fn_part1 (F := F) main_arg6 main_v13 main_v16
-- ==== Kernel.lean ====
abbrev S100000x256 : Shape := ⟨2, ![100000, 256]⟩
abbrev S1600000 : Shape := ⟨1, ![1600000]⟩
abbrev S256x64 : Shape := ⟨2, ![256, 64]⟩
abbrev S64 : Shape := ⟨1, ![64]⟩
abbrev S64x40 : Shape := ⟨2, ![64, 40]⟩
abbrev S40 : Shape := ⟨1, ![40]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x64 : Shape := ⟨2, ![100000, 64]⟩
abbrev S5000x256 : Shape := ⟨2, ![5000, 256]⟩
abbrev S5000x1 : Shape := ⟨2, ![5000, 1]⟩
abbrev S5000x64 : Shape := ⟨2, ![5000, 64]⟩
abbrev S1600000x64 : Shape := ⟨2, ![1600000, 64]⟩
abbrev S1x64 : Shape := ⟨2, ![1, 64]⟩
abbrev S100000x40 : Shape := ⟨2, ![100000, 40]⟩
abbrev S4000x64 : Shape := ⟨2, ![4000, 64]⟩
abbrev S4000x1 : Shape := ⟨2, ![4000, 1]⟩
abbrev S4000x40 : Shape := ⟨2, ![4000, 40]⟩
abbrev S1600000x40 : Shape := ⟨2, ![1600000, 40]⟩
abbrev S1x40 : Shape := ⟨2, ![1, 40]⟩
abbrev S5000x40 : Shape := ⟨2, ![5000, 40]⟩

abbrev nBuf : Space → Nat
  | .hbm => 61
  | .vmem => 26
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S256x64, .f32⟩
  | .hbm, ⟨4, _⟩ => ⟨S64, .f32⟩
  | .hbm, ⟨5, _⟩ => ⟨S64x40, .f32⟩
  | .hbm, ⟨6, _⟩ => ⟨S40, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S100000x64, .bf16⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x64, .bf16⟩
  | .hbm, ⟨37, _⟩ => ⟨S1600000x64, .f32⟩
  | .hbm, ⟨38, _⟩ => ⟨S_, .f32⟩
  | .hbm, ⟨39, _⟩ => ⟨S100000x64, .f32⟩
  | .hbm, ⟨40, _⟩ => ⟨S1600000x1, .i32⟩
  | .hbm, ⟨41, _⟩ => ⟨S100000x64, .f32⟩
  | .hbm, ⟨42, _⟩ => ⟨S1x64, .f32⟩
  | .hbm, ⟨43, _⟩ => ⟨S100000x64, .f32⟩
  | .hbm, ⟨44, _⟩ => ⟨S100000x40, .bf16⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x40, .bf16⟩
  | .hbm, ⟨54, _⟩ => ⟨S1600000x40, .f32⟩
  | .hbm, ⟨55, _⟩ => ⟨S_, .f32⟩
  | .hbm, ⟨56, _⟩ => ⟨S100000x40, .f32⟩
  | .hbm, ⟨57, _⟩ => ⟨S1600000x1, .i32⟩
  | .hbm, ⟨58, _⟩ => ⟨S100000x40, .f32⟩
  | .hbm, ⟨59, _⟩ => ⟨S1x40, .f32⟩
  | .hbm, ⟨60, _⟩ => ⟨S100000x40, .f32⟩
  | .local _ .vmem, ⟨0, _⟩ => ⟨S5000x256, .f32⟩
  | .local _ .vmem, ⟨1, _⟩ => ⟨S5000x256, .f32⟩
  | .local _ .vmem, ⟨2, _⟩ => ⟨S5000x1, .f32⟩
  | .local _ .vmem, ⟨3, _⟩ => ⟨S5000x1, .f32⟩
  | .local _ .vmem, ⟨4, _⟩ => ⟨S256x64, .f32⟩
  | .local _ .vmem, ⟨5, _⟩ => ⟨S5000x64, .bf16⟩
  | .local _ .vmem, ⟨6, _⟩ => ⟨S5000x64, .bf16⟩
  | .local _ .vmem, ⟨7, _⟩ => ⟨S4000x64, .f32⟩
  | .local _ .vmem, ⟨8, _⟩ => ⟨S4000x64, .f32⟩
  | .local _ .vmem, ⟨9, _⟩ => ⟨S4000x1, .f32⟩
  | .local _ .vmem, ⟨10, _⟩ => ⟨S4000x1, .f32⟩
  | .local _ .vmem, ⟨11, _⟩ => ⟨S1x64, .f32⟩
  | .local _ .vmem, ⟨12, _⟩ => ⟨S4000x1, .f32⟩
  | .local _ .vmem, ⟨13, _⟩ => ⟨S4000x1, .f32⟩
  | .local _ .vmem, ⟨14, _⟩ => ⟨S64x40, .f32⟩
  | .local _ .vmem, ⟨15, _⟩ => ⟨S4000x64, .f32⟩
  | .local _ .vmem, ⟨16, _⟩ => ⟨S4000x64, .f32⟩
  | .local _ .vmem, ⟨17, _⟩ => ⟨S4000x40, .bf16⟩
  | .local _ .vmem, ⟨18, _⟩ => ⟨S4000x40, .bf16⟩
  | .local _ .vmem, ⟨19, _⟩ => ⟨S5000x40, .f32⟩
  | .local _ .vmem, ⟨20, _⟩ => ⟨S5000x40, .f32⟩
  | .local _ .vmem, ⟨21, _⟩ => ⟨S5000x1, .f32⟩
  | .local _ .vmem, ⟨22, _⟩ => ⟨S5000x1, .f32⟩
  | .local _ .vmem, ⟨23, _⟩ => ⟨S1x40, .f32⟩
  | .local _ .vmem, ⟨24, _⟩ => ⟨S5000x40, .f32⟩
  | .local _ .vmem, ⟨25, _⟩ => ⟨S5000x40, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28_0 : Ref sig .tc := ⟨.hbm, 43, rfl⟩
abbrev main_v28_1 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_c_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_8 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg3_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem5_1 : DmaSem sig := 16
abbrev cc1_sem6_0 : DmaSem sig := 17
abbrev cc1_sem6_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem3_1 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S64x40 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S4000x40 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x40 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x256_S5000x256_0_0 : ∀ a, (![0, 0] : Fin 2 → Nat) a + S5000x256.size a ≤ S5000x256.size a
  h_S5000x256 : 0 < S5000x256.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x256 : S5000x1.Broadcasts S5000x256
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  bcast_S_S100000x64 : S_.BroadcastsInDim S100000x64 (![] : Fin 0 → Fin S100000x64.rank)
  shapeCasts_S64_S1x64 : S64.ShapeCasts S1x64
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S64x40_S64x40_0_0 : ∀ a, (![0, 0] : Fin 2 → Nat) a + S64x40.size a ≤ S64x40.size a
  h_S64x40 : 0 < S64x40.numel
  inb_S4000x40_S4000x40_0_0 : ∀ a, (![0, 0] : Fin 2 → Nat) a + S4000x40.size a ≤ S4000x40.size a
  h_S4000x40 : 0 < S4000x40.numel
  packedbf16_S4000x40_S4000x40_0_0 : (Rect.unit (s := S4000x40) ![0, 0] S4000x40.size inb_S4000x40_S4000x40_0_0).PackedRows (EltTy.packing .bf16)
  bcast_S_S100000x40 : S_.BroadcastsInDim S100000x40 (![] : Fin 0 → Fin S100000x40.rank)
  shapeCasts_S40_S1x40 : S40.ShapeCasts S1x40
  inb_S5000x40_S5000x40_0_0 : ∀ a, (![0, 0] : Fin 2 → Nat) a + S5000x40.size a ≤ S5000x40.size a
  h_S5000x40 : 0 < S5000x40.numel
  shapeCasts_S5000x40_S5000x40 : S5000x40.ShapeCasts S5000x40
  broadcasts_S5000x1_S5000x40 : S5000x1.Broadcasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  scatter_S100000_S1600000x1_S1600000_n_0_0_1_wf : ScatterDims.WF S100000 S1600000x1 S1600000 [] [0] [0] 1
  dot_S5000x256_S256x64_S5000x64_1_0_0_1_n_n_wf : DotDims.WF S5000x256 S256x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S4000x64_S64x40_S4000x40_1_0_0_1_n_n_wf : DotDims.WF S4000x64 S64x40 S4000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S256x64.size a
  hwx0_2 : ∀ i : grid0.Coords, EltTy.bits .f32 = 32 ∨ (Rect.block (s := S256x64) S256x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .bf16 = 32 ∨ (Rect.block (s := S100000x64) S5000x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x1.size a ≤ S100000x1.size a
  hwx1_3 : ∀ i : grid1.Coords, EltTy.bits .f32 = 32 ∨ (Rect.block (s := S100000x1) S4000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x40.size a ≤ S64x40.size a
  hwx1_4 : ∀ i : grid1.Coords, EltTy.bits .f32 = 32 ∨ (Rect.block (s := S64x40) S64x40.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x64.size a ≤ S100000x64.size a
  hwx1_5 : ∀ i : grid1.Coords, EltTy.bits .f32 = 32 ∨ (Rect.block (s := S100000x64) S4000x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x40.size a ≤ S100000x40.size a
  hwx1_6 : ∀ i : grid1.Coords, EltTy.bits .bf16 = 32 ∨ (Rect.block (s := S100000x40) S4000x40.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x40.size a ≤ S100000x40.size a
  hwx2_0 : ∀ i : grid2.Coords, EltTy.bits .f32 = 32 ∨ (Rect.block (s := S100000x40) S5000x40.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x40.size a ≤ S1x40.size a
  hwx2_2 : ∀ i : grid2.Coords, EltTy.bits .f32 = 32 ∨ (Rect.block (s := S1x40) S1x40.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x40.size a ≤ S100000x40.size a
  hwx2_3 : ∀ i : grid2.Coords, EltTy.bits .f32 = 32 ∨ (Rect.block (s := S100000x40) S5000x40.size (cc2_transform_3 i) (hinb2_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S4000x64_S64x40_S4000x40_1_0_0_1_n_n : DotDims S4000x64 S64x40 S4000x40 where
  lhsContracting := [1]
  rhsContracting := [0]
  lhsNonContracting := [0]
  rhsNonContracting := [1]
  lhsBatch := []
  rhsBatch := []
  wf := dot_S4000x64_S64x40_S4000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S4000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S64x40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28_0) S4000x64.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v28_1) S4000x40.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v39) S5000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v40) S1x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v41) S5000x40.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x256 : Shape := ⟨2, ![100000, 256]⟩
abbrev S1600000 : Shape := ⟨1, ![1600000]⟩
abbrev S256x64 : Shape := ⟨2, ![256, 64]⟩
abbrev S64 : Shape := ⟨1, ![64]⟩
abbrev S64x40 : Shape := ⟨2, ![64, 40]⟩
abbrev S40 : Shape := ⟨1, ![40]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x64 : Shape := ⟨2, ![100000, 64]⟩
abbrev S1600000x64 : Shape := ⟨2, ![1600000, 64]⟩
abbrev S1x64 : Shape := ⟨2, ![1, 64]⟩
abbrev S100000x40 : Shape := ⟨2, ![100000, 40]⟩
abbrev S1600000x40 : Shape := ⟨2, ![1600000, 40]⟩
abbrev S1x40 : Shape := ⟨2, ![1, 40]⟩

abbrev nBuf : Space → Nat
  | .hbm => 74
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S256x64, .f32⟩
  | .hbm, ⟨4, _⟩ => ⟨S64, .f32⟩
  | .hbm, ⟨5, _⟩ => ⟨S64x40, .f32⟩
  | .hbm, ⟨6, _⟩ => ⟨S40, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S100000x256, .f32⟩
  | .hbm, ⟨27, _⟩ => ⟨S100000x256, .f32⟩
  | .hbm, ⟨28, _⟩ => ⟨S100000x64, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x64, .f32⟩
  | .hbm, ⟨38, _⟩ => ⟨S_, .f32⟩
  | .hbm, ⟨39, _⟩ => ⟨S100000x64, .f32⟩
  | .hbm, ⟨40, _⟩ => ⟨S1600000x1, .i32⟩
  | .hbm, ⟨41, _⟩ => ⟨S100000x64, .f32⟩
  | .hbm, ⟨42, _⟩ => ⟨S100000x1, .f32⟩
  | .hbm, ⟨43, _⟩ => ⟨S100000x64, .f32⟩
  | .hbm, ⟨44, _⟩ => ⟨S100000x64, .f32⟩
  | .hbm, ⟨45, _⟩ => ⟨S1x64, .f32⟩
  | .hbm, ⟨46, _⟩ => ⟨S100000x64, .f32⟩
  | .hbm, ⟨47, _⟩ => ⟨S100000x64, .f32⟩
  | .hbm, ⟨48, _⟩ => ⟨S_, .f32⟩
  | .hbm, ⟨49, _⟩ => ⟨S100000x64, .f32⟩
  | .hbm, ⟨50, _⟩ => ⟨S100000x64, .f32⟩
  | .hbm, ⟨51, _⟩ => ⟨S100000x1, .f32⟩
  | .hbm, ⟨52, _⟩ => ⟨S100000x64, .f32⟩
  | .hbm, ⟨53, _⟩ => ⟨S100000x64, .f32⟩
  | .hbm, ⟨54, _⟩ => ⟨S100000x40, .f32⟩
  | .hbm, ⟨55, _⟩ => ⟨S_, .i32⟩
  | .hbm, ⟨56, _⟩ => ⟨S1600000, .i32⟩
  | .hbm, ⟨57, _⟩ => ⟨S1600000, .i1⟩
  | .hbm, ⟨58, _⟩ => ⟨S_, .i32⟩
  | .hbm, ⟨59, _⟩ => ⟨S1600000, .i32⟩
  | .hbm, ⟨60, _⟩ => ⟨S1600000, .i32⟩
  | .hbm, ⟨61, _⟩ => ⟨S1600000, .i32⟩
  | .hbm, ⟨62, _⟩ => ⟨S1600000x1, .i32⟩
  | .hbm, ⟨63, _⟩ => ⟨S1600000x40, .f32⟩
  | .hbm, ⟨64, _⟩ => ⟨S_, .f32⟩
  | .hbm, ⟨65, _⟩ => ⟨S100000x40, .f32⟩
  | .hbm, ⟨66, _⟩ => ⟨S1600000x1, .i32⟩
  | .hbm, ⟨67, _⟩ => ⟨S100000x40, .f32⟩
  | .hbm, ⟨68, _⟩ => ⟨S100000x1, .f32⟩
  | .hbm, ⟨69, _⟩ => ⟨S100000x40, .f32⟩
  | .hbm, ⟨70, _⟩ => ⟨S100000x40, .f32⟩
  | .hbm, ⟨71, _⟩ => ⟨S1x40, .f32⟩
  | .hbm, ⟨72, _⟩ => ⟨S100000x40, .f32⟩
  | .hbm, ⟨73, _⟩ => ⟨S100000x40, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call0_cst : Ref sig .tc := ⟨.hbm, 48, rfl⟩
abbrev main_call0_v0 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_6 : Ref sig .tc := ⟨.hbm, 55, rfl⟩
abbrev main_v38 : Ref sig .tc := ⟨.hbm, 56, rfl⟩
abbrev main_v39 : Ref sig .tc := ⟨.hbm, 57, rfl⟩
abbrev main_c_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_8 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x40 : S_.BroadcastsInDim S100000x40 (![] : Fin 0 → Fin S100000x40.rank)
  bcast_S100000x1_S100000x40_0_1 : S100000x1.BroadcastsInDim S100000x40 (![0, 1] : Fin 2 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1600000x1_S1600000_n_0_0_1_wf : ScatterDims.WF S100000 S1600000x1 S1600000 [] [0] [0] 1
  dot_S100000x256_S256x64_S100000x64_1_0_0_1_n_n_wf : DotDims.WF S100000x256 S256x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x40_S100000x40_1_0_0_1_n_n_wf : DotDims.WF S100000x64 S64x40 S100000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

class Facts : Prop extends Facts₀ where

variable [Facts]
-- ==== Proof.RunVals.lean ====
/-
  The kernel program's run with its two results named.

  @main is six segments: a stretch of host operations, a tiled kernel region, a stretch, a region, a stretch, a region.
  Every weakly fair execution terminates, and in the final state every unscoped buffer of the core holds the last
  boundary's contents: the fold of the stretches and of the regions' write-backs from the launch memory.  The frame
  statement keeps of this only the seven argument arrays; here the same run is stated with, besides, the two result
  buffers (the layer-2 output and the layer-1 pre-activation) at that fold's contents.
-/
import proofs.«140246_j55113020342885_2_alg».proof.Proof.Gen.KernelIdeal.Frame

set_option maxRecDepth 16384

noncomputable section

namespace Cert.KernelIdeal.Gcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of @main terminates, nothing faulting; the two
    result buffers end at the last boundary's contents and the argument arrays as launched. -/
theorem run_vals : θ_run defs (onTc (τ := τ) (main (F := F))) ⟨m, fun _ => 0, ρ⟩ (fun r => ∀ c : Dev nD,
      r.2.mem ((c.tc : Thread nD τ).loc main_v41) = W6 m ρ c (Proc.devRef .tc main_v41)
      ∧ r.2.mem ((c.tc : Thread nD τ).loc main_v28_0) = W6 m ρ c (Proc.devRef .tc main_v28_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v41 (by decide)),
       h c _ (mem_uc main_v28_0 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c)⟩)

end Cert.KernelIdeal.Gcn

end
-- ==== Proof.LibLayout.lean ====
/-
  Two spellings of one re-layout. Adding a unit axis to a vector — a reshape of [n] to [n, 1] or to [1, n] — and
  the broadcast_in_dim that sends the vector's one axis to the non-unit axis of the same result shape are the same
  function: element (r, 0) (respectively (0, r)) of either is element r of the vector.
-/
import Idealize.ShloMosaic.Lib.Pipeline.Value
import Idealize.ShloMosaic.Lib.ValueIdx
import Idealize.ShloMosaic.Lib.ValueLayout

noncomputable section

namespace Cert.LibLayout

open Idealize.ShloMosaic

variable {α : Type}

/-- [n] → [n, 1]: the reshape is the broadcast along axis 0; entry (r, 0) of either is entry r of the vector. -/
theorem shapeCast_col_eq_broadcastInDim (n : Nat) (v : (⟨1, ![n]⟩ : Shape).Idx → α)
    (h : (⟨1, ![n]⟩ : Shape).ShapeCasts ⟨2, ![n, 1]⟩) (hb : (⟨1, ![n]⟩ : Shape).BroadcastsInDim ⟨2, ![n, 1]⟩ ![0]) :
    shapeCast ⟨2, ![n, 1]⟩ v h = broadcastInDim ⟨2, ![n, 1]⟩ ![0] hb v := by
  funext j
  have hj1 : (j 1).val = 0 := by have := (j 1).isLt; simp at this; omega
  let k : (⟨1, ![n]⟩ : Shape).Idx := fun a => ⟨(j 0).val, by
    have ha : a = 0 := Subsingleton.elim _ _
    subst ha
    show (j 0).val < n
    exact (j 0).isLt⟩
  rw [shapeCast_apply v h j k ?_, broadcastInDim_apply ![0] hb v j k ?_]
  · intro a
    have ha : a = 0 := Subsingleton.elim _ _
    subst ha
    by_cases h1 : (⟨1, ![n]⟩ : Shape).size 0 = 1
    · rw [if_pos h1]
      have : (j 0).val < n := (j 0).isLt
      have h1' : n = 1 := h1
      show (j 0).val = 0
      omega
    · rw [if_neg h1]; rfl
  · rw [Shape.rowMajor_val_one, Shape.rowMajor_val_two]
    show (j 0).val = (j 0).val * 1 + (j 1).val
    omega

/-- [n] → [1, n]: the reshape is the broadcast along axis 1; entry (0, r) of either is entry r of the vector. -/
theorem shapeCast_row_eq_broadcastInDim (n : Nat) (v : (⟨1, ![n]⟩ : Shape).Idx → α)
    (h : (⟨1, ![n]⟩ : Shape).ShapeCasts ⟨2, ![1, n]⟩) (hb : (⟨1, ![n]⟩ : Shape).BroadcastsInDim ⟨2, ![1, n]⟩ ![1]) :
    shapeCast ⟨2, ![1, n]⟩ v h = broadcastInDim ⟨2, ![1, n]⟩ ![1] hb v := by
  funext j
  have hj0 : (j 0).val = 0 := by have := (j 0).isLt; simp at this; omega
  let k : (⟨1, ![n]⟩ : Shape).Idx := fun a => ⟨(j 1).val, by
    have ha : a = 0 := Subsingleton.elim _ _
    subst ha
    show (j 1).val < n
    exact (j 1).isLt⟩
  rw [shapeCast_apply v h j k ?_, broadcastInDim_apply ![1] hb v j k ?_]
  · intro a
    have ha : a = 0 := Subsingleton.elim _ _
    subst ha
    by_cases h1 : (⟨1, ![n]⟩ : Shape).size 0 = 1
    · rw [if_pos h1]
      have : (j 1).val < n := (j 1).isLt
      have h1' : n = 1 := h1
      show (j 1).val = 0
      omega
    · rw [if_neg h1]; rfl
  · rw [Shape.rowMajor_val_one, Shape.rowMajor_val_two]
    show (j 1).val = (j 0).val * n + (j 1).val
    rw [hj0]; omega

end Cert.LibLayout

end
-- ==== Proof.Host0.lean ====
/-
  The first stretch of host operations, read at the buffers the first tiled region and the later stretches take from it.

  No operation of the stretch writes an argument array, so each is as launched.  The stretch computes, from the two
  edge-endpoint arrays, the out- and in-degree of every node (a scatter-add of ones), clamps each below by one, takes
  the reciprocal square root, and re-shapes each vector of 100000 normalisers to a column [100000, 1].  The reference
  builds the same column by a broadcast along axis 0 instead of a reshape; the two are one function, so the kernel
  program's two columns ARE the reference's two broadcast stages of the edge arrays.
-/
import proofs.«140246_j55113020342885_2_alg».proof.Proof.Gen.KernelIdeal.Frame
import proofs.«140246_j55113020342885_2_alg».proof.Proof.Gen.ReferenceIdeal.Read
import Idealize.ShloMosaic.Lib.StableHlo.Run
import Idealize.ShloMosaic.Lib.ValueIdx
import proofs.«140246_j55113020342885_2_alg».proof.Proof.LibLayout
set_option maxRecDepth 16384

noncomputable section

namespace Cert.KernelIdeal.Gcn

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg) (c : Dev nD)

/-! ## The seven argument arrays on core `c`, as launched -/

abbrev A0 : Buf (Elt Ideal) ((c : Thread nD τ).loc main_arg0) := m ((c : Thread nD τ).loc main_arg0)
abbrev A1 : Buf (Elt Ideal) ((c : Thread nD τ).loc main_arg1) := m ((c : Thread nD τ).loc main_arg1)
abbrev A2 : Buf (Elt Ideal) ((c : Thread nD τ).loc main_arg2) := m ((c : Thread nD τ).loc main_arg2)
abbrev A3 : Buf (Elt Ideal) ((c : Thread nD τ).loc main_arg3) := m ((c : Thread nD τ).loc main_arg3)
abbrev A4 : Buf (Elt Ideal) ((c : Thread nD τ).loc main_arg4) := m ((c : Thread nD τ).loc main_arg4)
abbrev A5 : Buf (Elt Ideal) ((c : Thread nD τ).loc main_arg5) := m ((c : Thread nD τ).loc main_arg5)
abbrev A6 : Buf (Elt Ideal) ((c : Thread nD τ).loc main_arg6) := m ((c : Thread nD τ).loc main_arg6)

/-! ## The argument arrays are untouched -/

theorem W1_arg0 : W1 m ρ c (Proc.devRef .tc main_arg0) = A0 m c := by
  show StableHlo.after hostOps0 (W0 m ρ c) (Proc.devRef .tc main_arg0) = _
  after_results <;> rfl
theorem W1_arg1 : W1 m ρ c (Proc.devRef .tc main_arg1) = A1 m c := by
  show StableHlo.after hostOps0 (W0 m ρ c) (Proc.devRef .tc main_arg1) = _
  after_results <;> rfl
theorem W1_arg2 : W1 m ρ c (Proc.devRef .tc main_arg2) = A2 m c := by
  show StableHlo.after hostOps0 (W0 m ρ c) (Proc.devRef .tc main_arg2) = _
  after_results <;> rfl
theorem W1_arg3 : W1 m ρ c (Proc.devRef .tc main_arg3) = A3 m c := by
  show StableHlo.after hostOps0 (W0 m ρ c) (Proc.devRef .tc main_arg3) = _
  after_results <;> rfl
theorem W1_arg4 : W1 m ρ c (Proc.devRef .tc main_arg4) = A4 m c := by
  show StableHlo.after hostOps0 (W0 m ρ c) (Proc.devRef .tc main_arg4) = _
  after_results <;> rfl
theorem W1_arg5 : W1 m ρ c (Proc.devRef .tc main_arg5) = A5 m c := by
  show StableHlo.after hostOps0 (W0 m ρ c) (Proc.devRef .tc main_arg5) = _
  after_results <;> rfl
theorem W1_arg6 : W1 m ρ c (Proc.devRef .tc main_arg6) = A6 m c := by
  show StableHlo.after hostOps0 (W0 m ρ c) (Proc.devRef .tc main_arg6) = _
  after_results <;> rfl

/-! ## The two normaliser columns -/

/-- The source-degree normaliser column is the reference's broadcast of its normaliser vector. -/
theorem W1_v10 : W1 m ρ c (Proc.devRef .tc main_v10) = Cert.ReferenceIdeal.Read.val_main_v13 (F := Ideal) (A1 m c) := by
  show StableHlo.after hostOps0 (W0 m ρ c) (Proc.devRef .tc main_v10) = _
  after_results
  exact (show _ = shapeCast ⟨2, ![100000, 1]⟩ (Cert.ReferenceIdeal.Read.val_main_v9 (F := Ideal) (A1 m c)) shapeCasts_S100000_S100000x1 from rfl).trans
    (Cert.LibLayout.shapeCast_col_eq_broadcastInDim 100000 _ shapeCasts_S100000_S100000x1 Cert.ReferenceIdeal.Gen.bcast_S100000_S100000x1_0)

/-- The destination-degree normaliser column likewise. -/
theorem W1_v14 : W1 m ρ c (Proc.devRef .tc main_v14) = Cert.ReferenceIdeal.Read.val_main_v27 (F := Ideal) (A2 m c) := by
  show StableHlo.after hostOps0 (W0 m ρ c) (Proc.devRef .tc main_v14) = _
  after_results
  exact (show _ = shapeCast ⟨2, ![100000, 1]⟩ (Cert.ReferenceIdeal.Read.val_main_v12 (F := Ideal) (A2 m c)) shapeCasts_S100000_S100000x1 from rfl).trans
    (Cert.LibLayout.shapeCast_col_eq_broadcastInDim 100000 _ shapeCasts_S100000_S100000x1 Cert.ReferenceIdeal.Gen.bcast_S100000_S100000x1_0)

end Cert.KernelIdeal.Gcn

end
-- ==== Proof.LibKeepdims.lean ====
/-
  Two layout operations read at an index given by coordinates, for the column that a sum over the LAST axis with
  `keepdims=True` leaves: a vector `[a]` re-shaped to a column `[a, 1]`, and a column `[a, 1]` broadcast along its
  unit axis to a matrix `[a, b]`. (The row forms `[a] → [1, a]` and `[1, b] → [a, b]` are in the library's
  Lib/ValueLayout.lean; these are their transposes, for any extents and any element type.)
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to a column `[a, 1]` reads, at `(i, u)`, the operand at `i`, whatever the unit coordinate `u`:
    both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`: the row coordinate is kept
    (also when `a = 1`, where it can only be `0`), the coordinate on the unit axis is `0`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.Payload.lean ====
/-
  The three kernel bodies' stored values, read at an element of the block, at the ideal instance.

  * Layer 1's projection block: row p of the feature block is scaled by the row's source-degree normaliser and
    multiplied into the weight matrix; element (p, j) is the sum over the 256 input features k of
    (x[p,k] · n[p]) · W[k,j].  The bf16 roundings on the way into and out of the matrix product are the identity
    on the extended reals, and a matrix product into a zero accumulator is the plain sum of products.
  * The affine finish of a layer: element (p, j) is m[p,j] · n[p] + b[j] (the normaliser a column, the bias a row).
  * Layer 2's projection block from the same loads: element (p, j) is the sum over the 64 hidden features k of
    (max(h[p,k], 0) · n[p]) · W[k,j], h the affine finish above.
-/
import proofs.«140246_j55113020342885_2_alg».proof.Proof.Gen.KernelIdeal.Skeleton
import proofs.«140246_j55113020342885_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Gcn

open Idealize.ShloMosaic Idealize.ShloMosaic.ValueIdx Cert.KernelIdeal Cert.KernelIdeal.Gen

/-! ## The operand indices of the two matrix products -/

/-- S5000x256 × S256x64: row coordinate of the left operand is the output's row. -/
theorem dot1_lhs0 (i : S5000x64.Idx) (q : dot_S5000x256_S256x64_S5000x64_1_0_0_1_n_n.contr.Idx) : (dot_S5000x256_S256x64_S5000x64_1_0_0_1_n_n.lhsIdx i q 0).val = (i 0).val := by
  unfold DotDims.lhsIdx
  rw [dif_neg (show ¬(0 : Fin S5000x256.rank) ∈ dot_S5000x256_S256x64_S5000x64_1_0_0_1_n_n.lhsBatch by decide),
    dif_pos (show (0 : Fin S5000x256.rank) ∈ dot_S5000x256_S256x64_S5000x64_1_0_0_1_n_n.lhsNonContracting by decide)]
  rfl
/-- Column coordinate of the right operand is the output's column. -/
theorem dot1_rhs1 (i : S5000x64.Idx) (q : dot_S5000x256_S256x64_S5000x64_1_0_0_1_n_n.contr.Idx) : (dot_S5000x256_S256x64_S5000x64_1_0_0_1_n_n.rhsIdx i q 1).val = (i 1).val := by
  unfold DotDims.rhsIdx
  rw [dif_neg (show ¬(1 : Fin S256x64.rank) ∈ dot_S5000x256_S256x64_S5000x64_1_0_0_1_n_n.rhsBatch by decide),
    dif_pos (show (1 : Fin S256x64.rank) ∈ dot_S5000x256_S256x64_S5000x64_1_0_0_1_n_n.rhsNonContracting by decide)]
  rfl
/-- At output (p, j) and contraction coordinate k the left operand is read at (p, k). -/
theorem dot1_lhs (p : Fin 5000) (j : Fin 64) (k : Fin 256) :
    dot_S5000x256_S256x64_S5000x64_1_0_0_1_n_n.lhsIdx (ix2 p j) ((contrEquiv1 dot_S5000x256_S256x64_S5000x64_1_0_0_1_n_n 256 rfl rfl).symm k) = ix2 p k := by
  have hk := contrEquiv1_symm_val dot_S5000x256_S256x64_S5000x64_1_0_0_1_n_n 256 rfl rfl k
  funext a; apply Fin.ext
  match a with
  | ⟨0, _⟩ => exact dot1_lhs0 _ _
  | ⟨1, _⟩ => exact (dot_S5000x256_S256x64_S5000x64_1_0_0_1_n_n.lhsIdx_val_of_single rfl _ _).trans hk
/-- … and the right operand at (k, j). -/
theorem dot1_rhs (p : Fin 5000) (j : Fin 64) (k : Fin 256) :
    dot_S5000x256_S256x64_S5000x64_1_0_0_1_n_n.rhsIdx (ix2 p j) ((contrEquiv1 dot_S5000x256_S256x64_S5000x64_1_0_0_1_n_n 256 rfl rfl).symm k) = ix2 k j := by
  have hk := contrEquiv1_symm_val dot_S5000x256_S256x64_S5000x64_1_0_0_1_n_n 256 rfl rfl k
  funext a; apply Fin.ext
  match a with
  | ⟨0, _⟩ => exact (dot_S5000x256_S256x64_S5000x64_1_0_0_1_n_n.rhsIdx_val_of_single rfl _ _).trans hk
  | ⟨1, _⟩ => exact dot1_rhs1 _ _

/-- S4000x64 × S64x40: row coordinate of the left operand is the output's row. -/
theorem dot2_lhs0 (i : S4000x40.Idx) (q : dot_S4000x64_S64x40_S4000x40_1_0_0_1_n_n.contr.Idx) : (dot_S4000x64_S64x40_S4000x40_1_0_0_1_n_n.lhsIdx i q 0).val = (i 0).val := by
  unfold DotDims.lhsIdx
  rw [dif_neg (show ¬(0 : Fin S4000x64.rank) ∈ dot_S4000x64_S64x40_S4000x40_1_0_0_1_n_n.lhsBatch by decide),
    dif_pos (show (0 : Fin S4000x64.rank) ∈ dot_S4000x64_S64x40_S4000x40_1_0_0_1_n_n.lhsNonContracting by decide)]
  rfl
/-- Column coordinate of the right operand is the output's column. -/
theorem dot2_rhs1 (i : S4000x40.Idx) (q : dot_S4000x64_S64x40_S4000x40_1_0_0_1_n_n.contr.Idx) : (dot_S4000x64_S64x40_S4000x40_1_0_0_1_n_n.rhsIdx i q 1).val = (i 1).val := by
  unfold DotDims.rhsIdx
  rw [dif_neg (show ¬(1 : Fin S64x40.rank) ∈ dot_S4000x64_S64x40_S4000x40_1_0_0_1_n_n.rhsBatch by decide),
    dif_pos (show (1 : Fin S64x40.rank) ∈ dot_S4000x64_S64x40_S4000x40_1_0_0_1_n_n.rhsNonContracting by decide)]
  rfl
/-- At output (p, j) and contraction coordinate k the left operand is read at (p, k). -/
theorem dot2_lhs (p : Fin 4000) (j : Fin 40) (k : Fin 64) :
    dot_S4000x64_S64x40_S4000x40_1_0_0_1_n_n.lhsIdx (ix2 p j) ((contrEquiv1 dot_S4000x64_S64x40_S4000x40_1_0_0_1_n_n 64 rfl rfl).symm k) = ix2 p k := by
  have hk := contrEquiv1_symm_val dot_S4000x64_S64x40_S4000x40_1_0_0_1_n_n 64 rfl rfl k
  funext a; apply Fin.ext
  match a with
  | ⟨0, _⟩ => exact dot2_lhs0 _ _
  | ⟨1, _⟩ => exact (dot_S4000x64_S64x40_S4000x40_1_0_0_1_n_n.lhsIdx_val_of_single rfl _ _).trans hk
/-- … and the right operand at (k, j). -/
theorem dot2_rhs (p : Fin 4000) (j : Fin 40) (k : Fin 64) :
    dot_S4000x64_S64x40_S4000x40_1_0_0_1_n_n.rhsIdx (ix2 p j) ((contrEquiv1 dot_S4000x64_S64x40_S4000x40_1_0_0_1_n_n 64 rfl rfl).symm k) = ix2 k j := by
  have hk := contrEquiv1_symm_val dot_S4000x64_S64x40_S4000x40_1_0_0_1_n_n 64 rfl rfl k
  funext a; apply Fin.ext
  match a with
  | ⟨0, _⟩ => exact (dot_S4000x64_S64x40_S4000x40_1_0_0_1_n_n.rhsIdx_val_of_single rfl _ _).trans hk
  | ⟨1, _⟩ => exact dot2_rhs1 _ _

/-! ## The stored values at an element -/

/-- Layer 1's projection block at (p, j): the sum over the input features of (x[p,k] · n[p]) · W[k,j]. -/
theorem scaleMatmul_apply (x0 : Vec Ideal S5000x256 .f32) (x1 : Vec Ideal S5000x1 .f32) (x2 : Vec Ideal S256x64 .f32)
    (p : Fin 5000) (j : Fin 64) :
    k0_pay1 (F := Ideal) x0 x1 x2 (ix2 p j) = ∑ k : Fin 256, (x0 (ix2 p k) * x1 (ix2 p (0 : Fin 1))) * x2 (ix2 k j) := by
  unfold k0_pay1
  simp only [matmul]
  rw [truncf_apply, Ideal.matmul_constant_zero_apply,
    ← Equiv.sum_comp (contrEquiv1 dot_S5000x256_S256x64_S5000x64_1_0_0_1_n_n 256 rfl rfl).symm]
  refine Finset.sum_congr rfl fun k _ => ?_
  rw [dot1_lhs, dot1_rhs, truncf_apply, truncf_apply, mulf_apply, LibKeepdims.broadcastTo_a1_ab_apply, shapeCast_self]

/-- The affine finish of layer 1 at (p, j): m[p,j] · n[p] + b[j]. -/
theorem finish1_apply (v0 : Vec Ideal S4000x64 .f32) (v2 : Vec Ideal S4000x1 .f32) (v6 : Vec Ideal S1x64 .f32)
    (p : Fin 4000) (j : Fin 64) :
    k1_pay1 (F := Ideal) v0 v2 v6 (ix2 p j) = v0 (ix2 p j) * v2 (ix2 p (0 : Fin 1)) + v6 (ix2 (0 : Fin 1) j) := by
  unfold k1_pay1
  rw [addf_apply, mulf_apply, broadcastTo_1b_ab_apply, LibKeepdims.broadcastTo_a1_ab_apply,
    shapeCast_self, shapeCast_self, shapeCast_self]

/-- Layer 2's projection block at (p, j): the sum over the hidden features of (max(h[p,k], 0) · n[p]) · W[k,j]. -/
theorem reluMatmul_apply (v0 : Vec Ideal S4000x64 .f32) (v2 : Vec Ideal S4000x1 .f32) (v6 : Vec Ideal S1x64 .f32)
    (v13 : Vec Ideal S4000x1 .f32) (v18 : Vec Ideal S64x40 .f32) (p : Fin 4000) (j : Fin 40) :
    k1_pay2 (F := Ideal) v0 v2 v6 v13 v18 (ix2 p j)
      = ∑ k : Fin 64, (max (k1_pay1 (F := Ideal) v0 v2 v6 (ix2 p k)) (Ideal.ofBits .f32 0x00000000#32)
          * v13 (ix2 p (0 : Fin 1))) * v18 (ix2 k j) := by
  unfold k1_pay2
  simp only [matmul]
  rw [truncf_apply, Ideal.matmul_constant_zero_apply,
    ← Equiv.sum_comp (contrEquiv1 dot_S4000x64_S64x40_S4000x40_1_0_0_1_n_n 64 rfl rfl).symm]
  refine Finset.sum_congr rfl fun k _ => ?_
  rw [dot2_lhs, dot2_rhs, truncf_apply, truncf_apply, mulf_apply, maximumf_apply, LibKeepdims.broadcastTo_a1_ab_apply,
    shapeCast_self]
  rfl

/-- The affine finish of layer 2 at (p, j): m[p,j] · n[p] + b[j]. -/
theorem finish2_apply (v0 : Vec Ideal S5000x40 .f32) (v2 : Vec Ideal S5000x1 .f32) (v6 : Vec Ideal S1x40 .f32)
    (p : Fin 5000) (j : Fin 40) :
    k2_pay1 (F := Ideal) v0 v2 v6 (ix2 p j) = v0 (ix2 p j) * v2 (ix2 p (0 : Fin 1)) + v6 (ix2 (0 : Fin 1) j) := by
  unfold k2_pay1
  rw [addf_apply, mulf_apply, broadcastTo_1b_ab_apply, LibKeepdims.broadcastTo_a1_ab_apply,
    shapeCast_self, shapeCast_self, shapeCast_self]

end Cert.KernelIdeal.Gcn

end
-- ==== Proof.Spec.lean ====
/-
  The three whole-array functions of the two-layer graph convolution, on the extended reals.

  Write N for the number of nodes.  With a node-indexed column n of normalisers,
  * `proj`     is the dense projection of row-scaled features: (i, j) ↦ Σ_k (X[i,k] · n[i]) · W[k,j];
  * `affine`   is the finish of a layer after aggregation: (i, j) ↦ M[i,j] · n[i] + b[j], b a row;
  * `reluProj` is the next layer's projection of the rectified activations:
                 (i, j) ↦ Σ_k (max(H[i,k], 0) · n[i]) · W[k,j].
  Both programs compute exactly these (the aggregations between them are a gather and a scatter-add that the two
  programs spell identically), so no algebraic law beyond reading each operation at an index is needed: the sums run
  over the same index set in the same association, and the extended reals' infinities never have to be excluded.
-/
import Idealize.ShloMosaic.PureOps.Ideal
import Idealize.ShloMosaic.Lib.ValueIdx

noncomputable section

namespace Cert.GcnSpec

open Idealize.ShloMosaic Idealize.ShloMosaic.ValueIdx

/-- The row coordinate of a matrix index, as a number below the row count. -/
abbrev row {a b : Nat} (i : (⟨2, ![a, b]⟩ : Shape).Idx) : Fin a := ⟨(i 0).val, (i 0).isLt⟩
/-- The column coordinate of a matrix index. -/
abbrev col {a b : Nat} (i : (⟨2, ![a, b]⟩ : Shape).Idx) : Fin b := ⟨(i 1).val, (i 1).isLt⟩

/-- An index built from coordinates has those coordinates. -/
theorem row_ix2 {a b : Nat} (r : Fin a) (j : Fin b) : row (ix2 r j) = r := rfl
theorem col_ix2 {a b : Nat} (r : Fin a) (j : Fin b) : col (ix2 r j) = j := rfl

/-- (i, j) ↦ Σ_k (X[i,k] · n[i]) · W[k,j]. -/
def proj (N D H : Nat) (X : (⟨2, ![N, D]⟩ : Shape).Idx → EReal) (n : (⟨2, ![N, 1]⟩ : Shape).Idx → EReal)
    (W : (⟨2, ![D, H]⟩ : Shape).Idx → EReal) : (⟨2, ![N, H]⟩ : Shape).Idx → EReal :=
  fun i => ∑ k : Fin D, (X (ix2 (row i) k) * n (ix2 (row i) (0 : Fin 1))) * W (ix2 k (col i))

/-- (i, j) ↦ M[i,j] · n[i] + b[j]. -/
def affine (N H : Nat) (M : (⟨2, ![N, H]⟩ : Shape).Idx → EReal) (n : (⟨2, ![N, 1]⟩ : Shape).Idx → EReal)
    (b : (⟨2, ![1, H]⟩ : Shape).Idx → EReal) : (⟨2, ![N, H]⟩ : Shape).Idx → EReal :=
  fun i => M (ix2 (row i) (col i)) * n (ix2 (row i) (0 : Fin 1)) + b (ix2 (0 : Fin 1) (col i))

/-- (i, j) ↦ Σ_k (max(A[i,k], 0) · n[i]) · W[k,j]; the zero is the f32 word 0x00000000 read at the ideal instance. -/
def reluProj (N D H : Nat) (A : (⟨2, ![N, D]⟩ : Shape).Idx → EReal) (n : (⟨2, ![N, 1]⟩ : Shape).Idx → EReal)
    (W : (⟨2, ![D, H]⟩ : Shape).Idx → EReal) : (⟨2, ![N, H]⟩ : Shape).Idx → EReal :=
  fun i => ∑ k : Fin D, (max (A (ix2 (row i) k)) (Ideal.ofBits .f32 0x00000000#32) * n (ix2 (row i) (0 : Fin 1)))
    * W (ix2 k (col i))

end Cert.GcnSpec

end
-- ==== Proof.Region0.lean ====
/-
  The first tiled region: layer 1's projection of the whole feature array.

  The grid has 20 points; point t handles the 5000 node rows t·5000 … t·5000 + 4999.  Its feature block and its
  normaliser block are those rows of their arrays, the weight block is the whole weight matrix, and the block it
  writes back is those rows of the output.  So what point t writes back is the restriction to its rows of ONE function
  of the arrays as the region finds them — the specification's projection — and since the 20 row ranges tile the
  100000 rows, the output array ends holding that function everywhere.
-/
import proofs.«140246_j55113020342885_2_alg».proof.Proof.Gen.KernelIdeal.Frame
import proofs.«140246_j55113020342885_2_alg».proof.Proof.Payload
import proofs.«140246_j55113020342885_2_alg».proof.Proof.Spec
import Idealize.ShloMosaic.Lib.ValueIdx
import Idealize.ShloMosaic.Lib.Pipeline.Value

set_option maxRecDepth 16384

noncomputable section

namespace Cert.KernelIdeal.Gcn

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.GcnSpec

/-- All block offsets inside a staging buffer are zero: every load and store is of the whole block. -/
theorem offs_zero : (![0, 0] : Fin 2 → Nat) = fun _ => 0 := funext fun a => by fin_cases a <;> rfl

/-- The block indices of the four windows at a grid point: the row-tiled windows move with the point, the weight
    window stays. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b)) (c : Dev nD)

/-- The feature block at point t, row p, is row t·5000 + p of the feature array. -/
theorem rd0_feat (t : Fin cfg0.N) (p : Fin 5000) (k : Fin 256) (r : Fin 100000) (hr : r.val = t.val * 5000 + p.val) :
    iblk0 V c 0 t (ix2 p k) = V c main_arg0 (ix2 r k) := by
  obtain ⟨e0, e1, -⟩ := idx_facts0 t
  show V c main_arg0 (((cfg0.win 0).blk t).view.emb (ix2 p k)) = V c main_arg0 (ix2 r k)
  refine congrArg _ (funext fun a => Fin.ext ?_)
  match a with
  | ⟨0, _⟩ => show win0_0.index t (0 : Fin 2) * 5000 + 1 * p.val = r.val; omega
  | ⟨1, _⟩ => show win0_0.index t (1 : Fin 2) * 256 + 1 * k.val = k.val; omega

/-- The normaliser block at point t, row p, is row t·5000 + p of the normaliser column. -/
theorem rd0_norm (t : Fin cfg0.N) (p : Fin 5000) (r : Fin 100000) (hr : r.val = t.val * 5000 + p.val) :
    iblk0 V c 1 t (ix2 p (0 : Fin 1)) = V c main_v10 (ix2 r (0 : Fin 1)) := by
  obtain ⟨-, -, e2, e3, -⟩ := idx_facts0 t
  show V c main_v10 (((cfg0.win 1).blk t).view.emb (ix2 p (0 : Fin 1))) = V c main_v10 (ix2 r (0 : Fin 1))
  refine congrArg _ (funext fun a => Fin.ext ?_)
  match a with
  | ⟨0, _⟩ => show win0_1.index t (0 : Fin 2) * 5000 + 1 * p.val = r.val; omega
  | ⟨1, _⟩ => show win0_1.index t (1 : Fin 2) * 1 + 1 * 0 = 0; omega

/-- The weight block at every point is the whole weight matrix. -/
theorem rd0_weight (t : Fin cfg0.N) (k : Fin 256) (j : Fin 64) :
    iblk0 V c 2 t (ix2 k j) = V c main_arg3 (ix2 k j) := by
  obtain ⟨-, -, -, -, e4, e5, -⟩ := idx_facts0 t
  show V c main_arg3 (((cfg0.win 2).blk t).view.emb (ix2 k j)) = V c main_arg3 (ix2 k j)
  refine congrArg _ (funext fun a => Fin.ext ?_)
  match a with
  | ⟨0, _⟩ => show win0_2.index t (0 : Fin 2) * 256 + 1 * k.val = k.val; omega
  | ⟨1, _⟩ => show win0_2.index t (1 : Fin 2) * 64 + 1 * j.val = j.val; omega

/-- Element (p, j) of the output block at point t sits at (t·5000 + p, j) of the output array. -/
theorem emb0_out (t : Fin cfg0.N) (p : Fin 5000) (j : Fin 64) (r : Fin 100000) (hr : r.val = t.val * 5000 + p.val) :
    ((cfg0.win 3).blk t).view.emb (ix2 p j) = ix2 r j := by
  obtain ⟨-, -, -, -, -, -, e6, e7⟩ := idx_facts0 t
  refine funext fun a => Fin.ext ?_
  match a with
  | ⟨0, _⟩ => show win0_3.index t (0 : Fin 2) * 5000 + 1 * p.val = r.val; omega
  | ⟨1, _⟩ => show win0_3.index t (1 : Fin 2) * 64 + 1 * j.val = j.val; omega

/-- What point t writes back is its rows of the projection of the arrays as the region finds them. -/
theorem flushed0 (t : Fin cfg0.N) :
    (dat0 V c).flushed 3 t
      = ((cfg0.win 3).blk t).view.read (Elt Ideal) (proj 100000 256 64 (V c main_arg0) (V c main_v10) (V c main_arg3)) := by
  show (cfg0.win 3).cut (grid0.coords t) ((dat0 V c).after 3 t) = _
  rw [after0_3]
  unfold out0_3
  rw [View.canon_unit_zero offs_zero]
  simp only [View.ld_unit_zero (S := S5000x256) offs_zero, View.ld_unit_zero (S := S5000x1) offs_zero,
    View.ld_unit_zero (S := S256x64) offs_zero]
  funext y
  obtain ⟨p, j, rfl⟩ : ∃ (p : Fin 5000) (j : Fin 64), y = ix2 p j := ⟨y 0, y 1, eq_ix2 y⟩
  have ht : t.val < 20 := lt_of_lt_of_eq t.isLt N_0
  obtain ⟨r, hr⟩ : ∃ r : Fin 100000, r.val = t.val * 5000 + p.val := ⟨⟨t.val * 5000 + p.val, by omega⟩, rfl⟩
  show k0_pay1 (iblk0 V c 0 t) (iblk0 V c 1 t) (iblk0 V c 2 t) (ix2 p j)
    = proj 100000 256 64 (V c main_arg0) (V c main_v10) (V c main_arg3) (((cfg0.win 3).blk t).view.emb (ix2 p j))
  rw [emb0_out t p j r hr]
  refine (scaleMatmul_apply (iblk0 V c 0 t) (iblk0 V c 1 t) (iblk0 V c 2 t) p j).trans ?_
  unfold proj
  refine Finset.sum_congr rfl fun k _ => ?_
  rw [rd0_feat V c t p k r hr, rd0_norm V c t p r hr, rd0_weight V c t k j]

/-- An index of the output array is in point t's block iff its row is among the point's 5000. -/
theorem mem_blk0 (t : Fin cfg0.N) (i : S100000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v15).slice (win0_3.rect t)).set ↔ _
  rw [View.set_slice_whole, Rect.mem_set_unit]
  exact Iff.rfl

/-- The 20 blocks tile the output: row i0 is in the block of point i0 / 5000. -/
theorem cover0 (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, htv⟩ : ∃ t : Fin cfg0.N, t.val = (i 0).val / 5000 :=
    ⟨⟨(i 0).val / 5000, lt_of_lt_of_eq (show (i 0).val / 5000 < 20 by omega) N_0.symm⟩, rfl⟩
  obtain ⟨-, -, -, -, -, -, e6, e7⟩ := idx_facts0 t
  refine ⟨t, flush0_3 t, ?_⟩
  rw [mem_blk0]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 64 ≤ (i 1).val ∧ (i 1).val < win0_3.index t (1 : Fin 2) * 64 + 64
    omega

/-- After the region the output array is the projection of the arrays the region was entered with. -/
theorem final0 : (dat0 V c).arrAt 3 cfg0.N = proj 100000 256 64 (V c main_arg0) (V c main_v10) (V c main_arg3) :=
  (dat0 V c).arrAt_eq_of_cover 3 _ (fun t _ => flushed0 V c t) cover0

end Cert.KernelIdeal.Gcn

end
-- ==== Proof.RefStages.lean ====
/-
  The reference's dense stages as the specification's functions.

  Reading the reference one operation at a time: its first dot_general is the projection of the features scaled by the
  broadcast source normaliser; each graph convolution ends by multiplying the aggregated array by the broadcast destination
  normaliser and adding the broadcast bias; between the layers it rectifies and scales again before the second
  dot_general.  A broadcast of a column along the feature axis reads the column's entry in the same row, a broadcast of
  a row along the node axis the row's entry in the same column.
-/
import proofs.«140246_j55113020342885_2_alg».proof.Proof.Gen.ReferenceIdeal.Read
import proofs.«140246_j55113020342885_2_alg».proof.Proof.Spec

noncomputable section

namespace Cert.ReferenceIdeal.Gcn

open Idealize.ShloMosaic Idealize.ShloMosaic.ValueIdx Cert.ReferenceIdeal Cert.ReferenceIdeal.Read Cert.GcnSpec

/-- Layer 1's projection: the first dot_general. -/
theorem val16_eq_proj (x0 : (⟨S100000x256, .f32⟩ : BufTy).Contents (Elt Ideal)) (x1 : (⟨S1600000, .i32⟩ : BufTy).Contents (Elt Ideal))
    (x3 : (⟨S256x64, .f32⟩ : BufTy).Contents (Elt Ideal)) :
    val_main_v16 (F := Ideal) x0 x1 x3 = proj 100000 256 64 x0 (val_main_v13 (F := Ideal) x1) x3 := by
  funext i
  rw [val_main_v16_apply]
  unfold proj
  refine Finset.sum_congr rfl fun k _ => ?_
  rw [val_main_v15_apply, val_main_v14_apply]
  have e1 : lidx_main_v16 i k = ix2 (row i) k := funext fun a => Fin.ext (by
    match a with
    | ⟨0, _⟩ => rfl
    | ⟨1, _⟩ => rfl)
  have e2 : ridx_main_v16 i k = ix2 k (col i) := funext fun a => Fin.ext (by
    match a with
    | ⟨0, _⟩ => rfl
    | ⟨1, _⟩ => rfl)
  have e3 : idx_main_v14 (ix2 (row i) k) = ix2 (row i) (0 : Fin 1) := funext fun a => Fin.ext (by
    match a with
    | ⟨0, _⟩ => rfl
    | ⟨1, _⟩ => rfl)
  rw [e1, e2, e3]
  rfl

/-- Layer 1's finish: aggregated · destination normaliser + bias. -/
theorem val32_eq_affine (x0 : (⟨S100000x256, .f32⟩ : BufTy).Contents (Elt Ideal)) (x1 x2 : (⟨S1600000, .i32⟩ : BufTy).Contents (Elt Ideal)) (x3 : (⟨S256x64, .f32⟩ : BufTy).Contents (Elt Ideal)) (x4 : (⟨S64, .f32⟩ : BufTy).Contents (Elt Ideal)) :
    val_main_v32 (F := Ideal) x0 x1 x2 x3 x4
      = affine 100000 64 (val_main_v26 (F := Ideal) x0 x1 x2 x3) (val_main_v27 (F := Ideal) x2) (val_main_v30 (F := Ideal) x4) := by
  funext i
  rw [val_main_v32_apply, val_main_v29_apply, val_main_v28_apply, val_main_v31_apply]
  unfold affine
  have e0 : i = ix2 (row i) (col i) := funext fun a => Fin.ext (by
    match a with
    | ⟨0, _⟩ => rfl
    | ⟨1, _⟩ => rfl)
  have e1 : idx_main_v28 i = ix2 (row i) (0 : Fin 1) := funext fun a => Fin.ext (by
    match a with
    | ⟨0, _⟩ => rfl
    | ⟨1, _⟩ => rfl)
  have e2 : idx_main_v31 i = ix2 (0 : Fin 1) (col i) := funext fun a => Fin.ext (by
    match a with
    | ⟨0, _⟩ => rfl
    | ⟨1, _⟩ => rfl)
  rw [e1, e2, ← e0]
  rfl

/-- Layer 2's projection: rectify, scale by the source normaliser, second dot_general. -/
theorem val37_eq_reluProj (x0 : (⟨S100000x256, .f32⟩ : BufTy).Contents (Elt Ideal)) (x1 x2 : (⟨S1600000, .i32⟩ : BufTy).Contents (Elt Ideal)) (x3 : (⟨S256x64, .f32⟩ : BufTy).Contents (Elt Ideal)) (x4 : (⟨S64, .f32⟩ : BufTy).Contents (Elt Ideal))
    (x5 : (⟨S64x40, .f32⟩ : BufTy).Contents (Elt Ideal)) :
    val_main_v37 (F := Ideal) x0 x1 x2 x3 x4 x5
      = reluProj 100000 64 40 (val_main_v32 (F := Ideal) x0 x1 x2 x3 x4) (val_main_v34 (F := Ideal) x1) x5 := by
  funext i
  rw [val_main_v37_apply]
  unfold reluProj
  refine Finset.sum_congr rfl fun k _ => ?_
  rw [val_main_v36_apply, val_main_v33_apply, val_main_v35_apply, val_main_call0_v0_apply, val_main_call0_cst_apply]
  have e1 : lidx_main_v37 i k = ix2 (row i) k := funext fun a => Fin.ext (by
    match a with
    | ⟨0, _⟩ => rfl
    | ⟨1, _⟩ => rfl)
  have e2 : ridx_main_v37 i k = ix2 k (col i) := funext fun a => Fin.ext (by
    match a with
    | ⟨0, _⟩ => rfl
    | ⟨1, _⟩ => rfl)
  have e3 : idx_main_v35 (ix2 (row i) k) = ix2 (row i) (0 : Fin 1) := funext fun a => Fin.ext (by
    match a with
    | ⟨0, _⟩ => rfl
    | ⟨1, _⟩ => rfl)
  rw [e1, e2, e3]
  rfl

/-- Layer 2's finish. -/
theorem val53_eq_affine (x0 : (⟨S100000x256, .f32⟩ : BufTy).Contents (Elt Ideal)) (x1 x2 : (⟨S1600000, .i32⟩ : BufTy).Contents (Elt Ideal)) (x3 : (⟨S256x64, .f32⟩ : BufTy).Contents (Elt Ideal)) (x4 : (⟨S64, .f32⟩ : BufTy).Contents (Elt Ideal))
    (x5 : (⟨S64x40, .f32⟩ : BufTy).Contents (Elt Ideal)) (x6 : (⟨S40, .f32⟩ : BufTy).Contents (Elt Ideal)) :
    val_main_v53 (F := Ideal) x0 x1 x2 x3 x4 x5 x6
      = affine 100000 40 (val_main_v47 (F := Ideal) x0 x1 x2 x3 x4 x5) (val_main_v48 (F := Ideal) x2) (val_main_v51 (F := Ideal) x6) := by
  funext i
  rw [val_main_v53_apply, val_main_v50_apply, val_main_v49_apply, val_main_v52_apply]
  unfold affine
  have e0 : i = ix2 (row i) (col i) := funext fun a => Fin.ext (by
    match a with
    | ⟨0, _⟩ => rfl
    | ⟨1, _⟩ => rfl)
  have e1 : idx_main_v49 i = ix2 (row i) (0 : Fin 1) := funext fun a => Fin.ext (by
    match a with
    | ⟨0, _⟩ => rfl
    | ⟨1, _⟩ => rfl)
  have e2 : idx_main_v52 i = ix2 (0 : Fin 1) (col i) := funext fun a => Fin.ext (by
    match a with
    | ⟨0, _⟩ => rfl
    | ⟨1, _⟩ => rfl)
  rw [e1, e2, ← e0]
  rfl

end Cert.ReferenceIdeal.Gcn

end
-- ==== Proof.Stage1.lean ====
/-
  The buffers after the first tiled region and after the second stretch of host operations.

  The region leaves the arrays it only reads as it found them and its output at the projection of the features; written in
  the reference's stage names, that output is the reference's first dot_general.  The second stretch gathers that
  array's rows at the (wrapped) source endpoints, widens bf16 to f32 — the identity on the extended reals — and
  scatter-adds the rows at the destination endpoints: the same gather and scatter-add, on the same index arrays, as
  the reference applies to its dot_general, so the aggregated array is the reference's.  It also re-shapes the first
  bias vector to a row, which is the reference's broadcast of it along axis 1.
-/
import proofs.«140246_j55113020342885_2_alg».proof.Proof.Gen.KernelIdeal.Frame
import proofs.«140246_j55113020342885_2_alg».proof.Proof.Gen.ReferenceIdeal.Read
import Idealize.ShloMosaic.Lib.StableHlo.Run
import Idealize.ShloMosaic.Lib.ValueIdx
import proofs.«140246_j55113020342885_2_alg».proof.Proof.Host0
import proofs.«140246_j55113020342885_2_alg».proof.Proof.Region0
import proofs.«140246_j55113020342885_2_alg».proof.Proof.RefStages
set_option maxRecDepth 16384

noncomputable section

namespace Cert.KernelIdeal.Gcn

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg) (c : Dev nD)

open Cert.GcnSpec

/-! ## After the first region -/

theorem W2_arg1 : W2 m ρ c (Proc.devRef .tc main_arg1) = A1 m c :=
  (W2_of_ne m ρ c main_arg1 (by decide)).trans (W1_arg1 m ρ c)
theorem W2_arg2 : W2 m ρ c (Proc.devRef .tc main_arg2) = A2 m c :=
  (W2_of_ne m ρ c main_arg2 (by decide)).trans (W1_arg2 m ρ c)
theorem W2_arg4 : W2 m ρ c (Proc.devRef .tc main_arg4) = A4 m c :=
  (W2_of_ne m ρ c main_arg4 (by decide)).trans (W1_arg4 m ρ c)
theorem W2_arg5 : W2 m ρ c (Proc.devRef .tc main_arg5) = A5 m c :=
  (W2_of_ne m ρ c main_arg5 (by decide)).trans (W1_arg5 m ρ c)
theorem W2_arg6 : W2 m ρ c (Proc.devRef .tc main_arg6) = A6 m c :=
  (W2_of_ne m ρ c main_arg6 (by decide)).trans (W1_arg6 m ρ c)

/-- The destination normaliser column is no window of the first region. -/
theorem W2_v14 : W2 m ρ c (Proc.devRef .tc main_v14) = Cert.ReferenceIdeal.Read.val_main_v27 (F := Ideal) (A2 m c) :=
  (W2_of_ne m ρ c main_v14 (by decide)).trans (W1_v14 m ρ c)

/-- The source normaliser column is an input window of the first region: left as found. -/
theorem W2_v10 : W2 m ρ c (Proc.devRef .tc main_v10) = Cert.ReferenceIdeal.Read.val_main_v13 (F := Ideal) (A1 m c) :=
  (W2_arr m ρ c 1).trans (((dat0 (V1 m ρ) c).arrAt_in 1 rfl _).trans ((A_eq0 (V1 m ρ) c 1).trans (W1_v10 m ρ c)))

/-- The first region's output is the reference's first dot_general. -/
theorem W2_v15 : W2 m ρ c (Proc.devRef .tc main_v15)
    = Cert.ReferenceIdeal.Read.val_main_v16 (F := Ideal) (A0 m c) (A1 m c) (A3 m c) := by
  refine (W2_arr m ρ c 3).trans ((final0 (V1 m ρ) c).trans ?_)
  rw [Cert.ReferenceIdeal.Gcn.val16_eq_proj]
  show proj 100000 256 64 (W1 m ρ c (Proc.devRef .tc main_arg0)) (W1 m ρ c (Proc.devRef .tc main_v10))
    (W1 m ρ c (Proc.devRef .tc main_arg3)) = _
  rw [W1_arg0, W1_v10, W1_arg3]

/-! ## After the second stretch -/

theorem W3_arg1 : W3 m ρ c (Proc.devRef .tc main_arg1) = A1 m c := by
  show StableHlo.after hostOps1 (W2 m ρ c) (Proc.devRef .tc main_arg1) = _
  after_results
  exact W2_arg1 m ρ c
theorem W3_arg2 : W3 m ρ c (Proc.devRef .tc main_arg2) = A2 m c := by
  show StableHlo.after hostOps1 (W2 m ρ c) (Proc.devRef .tc main_arg2) = _
  after_results
  exact W2_arg2 m ρ c
theorem W3_arg5 : W3 m ρ c (Proc.devRef .tc main_arg5) = A5 m c := by
  show StableHlo.after hostOps1 (W2 m ρ c) (Proc.devRef .tc main_arg5) = _
  after_results
  exact W2_arg5 m ρ c
theorem W3_arg6 : W3 m ρ c (Proc.devRef .tc main_arg6) = A6 m c := by
  show StableHlo.after hostOps1 (W2 m ρ c) (Proc.devRef .tc main_arg6) = _
  after_results
  exact W2_arg6 m ρ c

theorem W3_v14 : W3 m ρ c (Proc.devRef .tc main_v14) = Cert.ReferenceIdeal.Read.val_main_v27 (F := Ideal) (A2 m c) := by
  show StableHlo.after hostOps1 (W2 m ρ c) (Proc.devRef .tc main_v14) = _
  after_results
  exact W2_v14 m ρ c

theorem W3_v10 : W3 m ρ c (Proc.devRef .tc main_v10) = Cert.ReferenceIdeal.Read.val_main_v13 (F := Ideal) (A1 m c) := by
  show StableHlo.after hostOps1 (W2 m ρ c) (Proc.devRef .tc main_v10) = _
  after_results
  exact W2_v10 m ρ c

/-- Layer 1's aggregated array is the reference's. -/
theorem W3_v26 : W3 m ρ c (Proc.devRef .tc main_v26)
    = Cert.ReferenceIdeal.Read.val_main_v26 (F := Ideal) (A0 m c) (A1 m c) (A2 m c) (A3 m c) := by
  show StableHlo.after hostOps1 (W2 m ρ c) (Proc.devRef .tc main_v26) = _
  after_results
  rw [W2_arg1, W2_arg2, W2_v15]
  rfl

/-- The first bias as a row [1, 64]: the reshape is the reference's broadcast along axis 1. -/
theorem W3_v27 : W3 m ρ c (Proc.devRef .tc main_v27) = Cert.ReferenceIdeal.Read.val_main_v30 (F := Ideal) (A4 m c) := by
  show StableHlo.after hostOps1 (W2 m ρ c) (Proc.devRef .tc main_v27) = _
  after_results
  rw [W2_arg4]
  exact (show _ = shapeCast ⟨2, ![1, 64]⟩ (A4 m c) shapeCasts_S64_S1x64 from rfl).trans
    (Cert.LibLayout.shapeCast_row_eq_broadcastInDim 64 _ shapeCasts_S64_S1x64 Cert.ReferenceIdeal.Gen.bcast_S64_S1x64_1)

end Cert.KernelIdeal.Gcn

end
-- ==== Proof.Region1.lean ====
/-
  The second tiled region: layer 1's finish and layer 2's projection, 25 points of 4000 node rows each.

  Point t reads rows t·4000 … t·4000 + 3999 of the aggregated array and of the two normaliser columns, and the whole
  bias row and weight matrix.  It writes back those rows of two arrays: the affine finish m · n_dst + b, and the
  projection of the rectified finish scaled by n_src.  Both blocks are the restriction to the point's rows of one
  function of the arrays as the region finds them, and the 25 row ranges tile the 100000 rows.
-/
import proofs.«140246_j55113020342885_2_alg».proof.Proof.Gen.KernelIdeal.Frame
import proofs.«140246_j55113020342885_2_alg».proof.Proof.Payload
import proofs.«140246_j55113020342885_2_alg».proof.Proof.Spec
import Idealize.ShloMosaic.Lib.ValueIdx
import Idealize.ShloMosaic.Lib.Pipeline.Value

set_option maxRecDepth 16384

noncomputable section

namespace Cert.KernelIdeal.Gcn

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.GcnSpec

/-- All block offsets inside a staging buffer are zero: every load and store is of the whole block. -/
theorem offs_zero1 : (![0, 0] : Fin 2 → Nat) = fun _ => 0 := funext fun a => by fin_cases a <;> rfl

/-- The block indices of the seven windows at a grid point: the row-tiled windows move with the point, the bias and
    weight windows stay. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

variable (V : (c : Dev nD) → (b : Ref sig .tc) → Buf (Elt Ideal) ((c : Thread nD τ).loc b)) (c : Dev nD)

/-- The aggregated block at point t, row p, is row t·4000 + p of the aggregated array. -/
theorem rd1_agg (t : Fin cfg1.N) (p : Fin 4000) (k : Fin 64) (r : Fin 100000) (hr : r.val = t.val * 4000 + p.val) :
    iblk1 V c 0 t (ix2 p k) = V c main_v26 (ix2 r k) := by
  obtain ⟨e0, e1, -⟩ := idx_facts1 t
  show V c main_v26 (((cfg1.win 0).blk t).view.emb (ix2 p k)) = V c main_v26 (ix2 r k)
  refine congrArg _ (funext fun a => Fin.ext ?_)
  match a with
  | ⟨0, _⟩ => show win1_0.index t (0 : Fin 2) * 4000 + 1 * p.val = r.val; omega
  | ⟨1, _⟩ => show win1_0.index t (1 : Fin 2) * 64 + 1 * k.val = k.val; omega

/-- The destination-normaliser block at point t, row p, is row t·4000 + p of its column. -/
theorem rd1_ndst (t : Fin cfg1.N) (p : Fin 4000) (r : Fin 100000) (hr : r.val = t.val * 4000 + p.val) :
    iblk1 V c 1 t (ix2 p (0 : Fin 1)) = V c main_v14 (ix2 r (0 : Fin 1)) := by
  obtain ⟨-, -, e2, e3, -⟩ := idx_facts1 t
  show V c main_v14 (((cfg1.win 1).blk t).view.emb (ix2 p (0 : Fin 1))) = V c main_v14 (ix2 r (0 : Fin 1))
  refine congrArg _ (funext fun a => Fin.ext ?_)
  match a with
  | ⟨0, _⟩ => show win1_1.index t (0 : Fin 2) * 4000 + 1 * p.val = r.val; omega
  | ⟨1, _⟩ => show win1_1.index t (1 : Fin 2) * 1 + 1 * 0 = 0; omega

/-- The bias block at every point is the whole bias row. -/
theorem rd1_bias (t : Fin cfg1.N) (j : Fin 64) :
    iblk1 V c 2 t (ix2 (0 : Fin 1) j) = V c main_v27 (ix2 (0 : Fin 1) j) := by
  obtain ⟨-, -, -, -, e4, e5, -⟩ := idx_facts1 t
  show V c main_v27 (((cfg1.win 2).blk t).view.emb (ix2 (0 : Fin 1) j)) = V c main_v27 (ix2 (0 : Fin 1) j)
  refine congrArg _ (funext fun a => Fin.ext ?_)
  match a with
  | ⟨0, _⟩ => show win1_2.index t (0 : Fin 2) * 1 + 1 * 0 = 0; omega
  | ⟨1, _⟩ => show win1_2.index t (1 : Fin 2) * 64 + 1 * j.val = j.val; omega

/-- The source-normaliser block at point t, row p, is row t·4000 + p of its column. -/
theorem rd1_nsrc (t : Fin cfg1.N) (p : Fin 4000) (r : Fin 100000) (hr : r.val = t.val * 4000 + p.val) :
    iblk1 V c 3 t (ix2 p (0 : Fin 1)) = V c main_v10 (ix2 r (0 : Fin 1)) := by
  obtain ⟨-, -, -, -, -, -, e6, e7, -⟩ := idx_facts1 t
  show V c main_v10 (((cfg1.win 3).blk t).view.emb (ix2 p (0 : Fin 1))) = V c main_v10 (ix2 r (0 : Fin 1))
  refine congrArg _ (funext fun a => Fin.ext ?_)
  match a with
  | ⟨0, _⟩ => show win1_3.index t (0 : Fin 2) * 4000 + 1 * p.val = r.val; omega
  | ⟨1, _⟩ => show win1_3.index t (1 : Fin 2) * 1 + 1 * 0 = 0; omega

/-- The weight block at every point is the whole second weight matrix. -/
theorem rd1_weight (t : Fin cfg1.N) (k : Fin 64) (j : Fin 40) :
    iblk1 V c 4 t (ix2 k j) = V c main_arg5 (ix2 k j) := by
  obtain ⟨-, -, -, -, -, -, -, -, e8, e9, -⟩ := idx_facts1 t
  show V c main_arg5 (((cfg1.win 4).blk t).view.emb (ix2 k j)) = V c main_arg5 (ix2 k j)
  refine congrArg _ (funext fun a => Fin.ext ?_)
  match a with
  | ⟨0, _⟩ => show win1_4.index t (0 : Fin 2) * 64 + 1 * k.val = k.val; omega
  | ⟨1, _⟩ => show win1_4.index t (1 : Fin 2) * 40 + 1 * j.val = j.val; omega

/-- Element (p, j) of the first output block at point t sits at (t·4000 + p, j) of the pre-activation array. -/
theorem emb1_pre (t : Fin cfg1.N) (p : Fin 4000) (j : Fin 64) (r : Fin 100000) (hr : r.val = t.val * 4000 + p.val) :
    ((cfg1.win 5).blk t).view.emb (ix2 p j) = ix2 r j := by
  obtain ⟨-, -, -, -, -, -, -, -, -, -, e10, e11, -⟩ := idx_facts1 t
  refine funext fun a => Fin.ext ?_
  match a with
  | ⟨0, _⟩ => show win1_5.index t (0 : Fin 2) * 4000 + 1 * p.val = r.val; omega
  | ⟨1, _⟩ => show win1_5.index t (1 : Fin 2) * 64 + 1 * j.val = j.val; omega

/-- Element (p, j) of the second output block at point t sits at (t·4000 + p, j) of the projection array. -/
theorem emb1_proj (t : Fin cfg1.N) (p : Fin 4000) (j : Fin 40) (r : Fin 100000) (hr : r.val = t.val * 4000 + p.val) :
    ((cfg1.win 6).blk t).view.emb (ix2 p j) = ix2 r j := by
  obtain ⟨-, -, -, -, -, -, -, -, -, -, -, -, e12, e13⟩ := idx_facts1 t
  refine funext fun a => Fin.ext ?_
  match a with
  | ⟨0, _⟩ => show win1_6.index t (0 : Fin 2) * 4000 + 1 * p.val = r.val; omega
  | ⟨1, _⟩ => show win1_6.index t (1 : Fin 2) * 40 + 1 * j.val = j.val; omega

/-- The affine finish at a block element, in terms of the arrays: m[r,k] · n_dst[r] + b[k]. -/
theorem finish1_at (t : Fin cfg1.N) (p : Fin 4000) (k : Fin 64) (r : Fin 100000) (hr : r.val = t.val * 4000 + p.val) :
    k1_pay1 (F := Ideal) (iblk1 V c 0 t) (iblk1 V c 1 t) (iblk1 V c 2 t) (ix2 p k)
      = affine 100000 64 (V c main_v26) (V c main_v14) (V c main_v27) (ix2 r k) := by
  refine (finish1_apply (iblk1 V c 0 t) (iblk1 V c 1 t) (iblk1 V c 2 t) p k).trans ?_
  unfold affine
  rw [rd1_agg V c t p k r hr, rd1_ndst V c t p r hr, rd1_bias V c t k]

/-- What point t writes back to the pre-activation array is its rows of the affine finish. -/
theorem flushed1_pre (t : Fin cfg1.N) :
    (dat1 V c).flushed 5 t
      = ((cfg1.win 5).blk t).view.read (Elt Ideal) (affine 100000 64 (V c main_v26) (V c main_v14) (V c main_v27)) := by
  show (cfg1.win 5).cut (grid1.coords t) ((dat1 V c).after 5 t) = _
  rw [after1_5]
  unfold out1_5
  rw [View.canon_unit_zero offs_zero1]
  simp only [View.ld_unit_zero (S := S4000x64) offs_zero1, View.ld_unit_zero (S := S4000x1) offs_zero1,
    View.ld_unit_zero (S := S1x64) offs_zero1]
  funext y
  obtain ⟨p, j, rfl⟩ : ∃ (p : Fin 4000) (j : Fin 64), y = ix2 p j := ⟨y 0, y 1, eq_ix2 y⟩
  have ht : t.val < 25 := lt_of_lt_of_eq t.isLt N_1
  obtain ⟨r, hr⟩ : ∃ r : Fin 100000, r.val = t.val * 4000 + p.val := ⟨⟨t.val * 4000 + p.val, by omega⟩, rfl⟩
  show k1_pay1 (iblk1 V c 0 t) (iblk1 V c 1 t) (iblk1 V c 2 t) (ix2 p j)
    = affine 100000 64 (V c main_v26) (V c main_v14) (V c main_v27) (((cfg1.win 5).blk t).view.emb (ix2 p j))
  rw [emb1_pre t p j r hr]
  exact finish1_at V c t p j r hr

/-- What point t writes back to the projection array is its rows of the rectified, scaled projection. -/
theorem flushed1_proj (t : Fin cfg1.N) :
    (dat1 V c).flushed 6 t
      = ((cfg1.win 6).blk t).view.read (Elt Ideal)
          (reluProj 100000 64 40 (affine 100000 64 (V c main_v26) (V c main_v14) (V c main_v27)) (V c main_v10) (V c main_arg5)) := by
  show (cfg1.win 6).cut (grid1.coords t) ((dat1 V c).after 6 t) = _
  rw [after1_6]
  unfold out1_6
  rw [View.canon_unit_zero offs_zero1]
  simp only [View.ld_unit_zero (S := S4000x64) offs_zero1, View.ld_unit_zero (S := S4000x1) offs_zero1,
    View.ld_unit_zero (S := S1x64) offs_zero1, View.ld_unit_zero (S := S64x40) offs_zero1]
  funext y
  obtain ⟨p, j, rfl⟩ : ∃ (p : Fin 4000) (j : Fin 40), y = ix2 p j := ⟨y 0, y 1, eq_ix2 y⟩
  have ht : t.val < 25 := lt_of_lt_of_eq t.isLt N_1
  obtain ⟨r, hr⟩ : ∃ r : Fin 100000, r.val = t.val * 4000 + p.val := ⟨⟨t.val * 4000 + p.val, by omega⟩, rfl⟩
  show k1_pay2 (iblk1 V c 0 t) (iblk1 V c 1 t) (iblk1 V c 2 t) (iblk1 V c 3 t) (iblk1 V c 4 t) (ix2 p j)
    = reluProj 100000 64 40 (affine 100000 64 (V c main_v26) (V c main_v14) (V c main_v27)) (V c main_v10) (V c main_arg5)
        (((cfg1.win 6).blk t).view.emb (ix2 p j))
  rw [emb1_proj t p j r hr]
  refine (reluMatmul_apply (iblk1 V c 0 t) (iblk1 V c 1 t) (iblk1 V c 2 t) (iblk1 V c 3 t) (iblk1 V c 4 t) p j).trans ?_
  unfold reluProj
  refine Finset.sum_congr rfl fun k _ => ?_
  rw [finish1_at V c t p k r hr, rd1_nsrc V c t p r hr, rd1_weight V c t k j]

/-- An index of the pre-activation array is in point t's block iff its row is among the point's 4000. -/
theorem mem_blk1_pre (t : Fin cfg1.N) (i : S100000x64.Idx) :
    i ∈ ((cfg1.win 5).blk t).view.set ↔ ∀ a : Fin 2, win1_5.index t a * S4000x64.size a ≤ (i a).val
      ∧ (i a).val < win1_5.index t a * S4000x64.size a + S4000x64.size a := by
  show i ∈ ((View.whole main_v28_0).slice (win1_5.rect t)).set ↔ _
  rw [View.set_slice_whole, Rect.mem_set_unit]
  exact Iff.rfl

/-- … and of the projection array likewise. -/
theorem mem_blk1_proj (t : Fin cfg1.N) (i : S100000x40.Idx) :
    i ∈ ((cfg1.win 6).blk t).view.set ↔ ∀ a : Fin 2, win1_6.index t a * S4000x40.size a ≤ (i a).val
      ∧ (i a).val < win1_6.index t a * S4000x40.size a + S4000x40.size a := by
  show i ∈ ((View.whole main_v28_1).slice (win1_6.rect t)).set ↔ _
  rw [View.set_slice_whole, Rect.mem_set_unit]
  exact Iff.rfl

/-- The 25 blocks tile the pre-activation array: row i0 is in the block of point i0 / 4000. -/
theorem cover1_pre (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  obtain ⟨t, htv⟩ : ∃ t : Fin cfg1.N, t.val = (i 0).val / 4000 :=
    ⟨⟨(i 0).val / 4000, lt_of_lt_of_eq (show (i 0).val / 4000 < 25 by omega) N_1.symm⟩, rfl⟩
  obtain ⟨-, -, -, -, -, -, -, -, -, -, e10, e11, -⟩ := idx_facts1 t
  refine ⟨t, flush1_5 t, ?_⟩
  rw [mem_blk1_pre]
  intro a
  match a with
  | ⟨0, _⟩ =>
    show win1_5.index t (0 : Fin 2) * 4000 ≤ (i 0).val ∧ (i 0).val < win1_5.index t (0 : Fin 2) * 4000 + 4000
    omega
  | ⟨1, _⟩ =>
    show win1_5.index t (1 : Fin 2) * 64 ≤ (i 1).val ∧ (i 1).val < win1_5.index t (1 : Fin 2) * 64 + 64
    omega

/-- … and the projection array likewise. -/
theorem cover1_proj (i : S100000x40.Idx) :
    ∃ t : Fin cfg1.N, (cfg1.win 6).flush t = true ∧ i ∈ ((cfg1.win 6).blk t).view.set := by
  have hi0 : (i 0).val < 100000 := (i 0).isLt
  have hi1 : (i 1).val < 40 := (i 1).isLt
  obtain ⟨t, htv⟩ : ∃ t : Fin cfg1.N, t.val = (i 0).val / 4000 :=
    ⟨⟨(i 0).val / 4000, lt_of_lt_of_eq (show (i 0).val / 4000 < 25 by omega) N_1.symm⟩, rfl⟩
  obtain ⟨-, -, -, -, -, -, -, -, -, -, -, -, e12, e13⟩ := idx_facts1 t
  refine ⟨t, flush1_6 t, ?_⟩
  rw [mem_blk1_proj]
  intro a
  match a with
  | ⟨0, _⟩ =>
    show win1_6.index t (0 : Fin 2) * 4000 ≤ (i 0).val ∧ (i 0).val < win1_6.index t (0 : Fin 2) * 4000 + 4000
    omega
  | ⟨1, _⟩ =>
    show win1_6.index t (1 : Fin 2) * 40 ≤ (i 1).val ∧ (i 1).val < win1_6.index t (1 : Fin 2) * 40 + 40
    omega

/-- After the region the pre-activation array is the affine finish of the arrays the region was entered with. -/
theorem final1_pre : (dat1 V c).arrAt 5 cfg1.N = affine 100000 64 (V c main_v26) (V c main_v14) (V c main_v27) :=
  (dat1 V c).arrAt_eq_of_cover 5 _ (fun t _ => flushed1_pre V c t) cover1_pre

/-- … and the projection array the rectified, scaled projection of that finish. -/
theorem final1_proj : (dat1 V c).arrAt 6 cfg1.N
    = reluProj 100000 64 40 (affine 100000 64 (V c main_v26) (V c main_v14) (V c main_v27)) (V c main_v10) (V c main_arg5) :=
  (dat1 V c).arrAt_eq_of_cover 6 _ (fun t _ => flushed1_proj V c t) cover1_proj

end Cert.KernelIdeal.Gcn

end
-- ==== Proof.Stage2.lean ====
/-
  The buffers after the second tiled region and after the third stretch of host operations.

  The second region's first output is the affine finish of layer 1 — the reference's pre-activation result — and its
  second output the projection of the rectified, scaled finish — the reference's second dot_general.  The third stretch
  aggregates the second projection exactly as the second stretch aggregated the first, and re-shapes the second bias
  to a row.
-/
import proofs.«140246_j55113020342885_2_alg».proof.Proof.Gen.KernelIdeal.Frame
import proofs.«140246_j55113020342885_2_alg».proof.Proof.Gen.ReferenceIdeal.Read
import Idealize.ShloMosaic.Lib.StableHlo.Run
import Idealize.ShloMosaic.Lib.ValueIdx
import proofs.«140246_j55113020342885_2_alg».proof.Proof.Stage1
import proofs.«140246_j55113020342885_2_alg».proof.Proof.Region1
set_option maxRecDepth 16384

noncomputable section

namespace Cert.KernelIdeal.Gcn

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg) (c : Dev nD)

open Cert.GcnSpec

/-! ## After the second region -/

theorem W4_arg1 : W4 m ρ c (Proc.devRef .tc main_arg1) = A1 m c :=
  (W4_of_ne m ρ c main_arg1 (by decide)).trans (W3_arg1 m ρ c)
theorem W4_arg2 : W4 m ρ c (Proc.devRef .tc main_arg2) = A2 m c :=
  (W4_of_ne m ρ c main_arg2 (by decide)).trans (W3_arg2 m ρ c)
theorem W4_arg6 : W4 m ρ c (Proc.devRef .tc main_arg6) = A6 m c :=
  (W4_of_ne m ρ c main_arg6 (by decide)).trans (W3_arg6 m ρ c)

/-- The destination normaliser column is an input window of the second region: left as found. -/
theorem W4_v14 : W4 m ρ c (Proc.devRef .tc main_v14) = Cert.ReferenceIdeal.Read.val_main_v27 (F := Ideal) (A2 m c) :=
  (W4_arr m ρ c 1).trans (((dat1 (V3 m ρ) c).arrAt_in 1 rfl _).trans ((A_eq1 (V3 m ρ) c 1).trans (W3_v14 m ρ c)))

/-- The pre-activation array is the reference's second result. -/
theorem W4_v28_0 : W4 m ρ c (Proc.devRef .tc main_v28_0)
    = Cert.ReferenceIdeal.Read.val_main_v32 (F := Ideal) (A0 m c) (A1 m c) (A2 m c) (A3 m c) (A4 m c) := by
  refine (W4_arr m ρ c 5).trans ((final1_pre (V3 m ρ) c).trans ?_)
  rw [Cert.ReferenceIdeal.Gcn.val32_eq_affine]
  show affine 100000 64 (W3 m ρ c (Proc.devRef .tc main_v26)) (W3 m ρ c (Proc.devRef .tc main_v14))
    (W3 m ρ c (Proc.devRef .tc main_v27)) = _
  rw [W3_v26, W3_v14, W3_v27]

/-- The second projection is the reference's second dot_general. -/
theorem W4_v28_1 : W4 m ρ c (Proc.devRef .tc main_v28_1)
    = Cert.ReferenceIdeal.Read.val_main_v37 (F := Ideal) (A0 m c) (A1 m c) (A2 m c) (A3 m c) (A4 m c) (A5 m c) := by
  refine (W4_arr m ρ c 6).trans ((final1_proj (V3 m ρ) c).trans ?_)
  rw [Cert.ReferenceIdeal.Gcn.val37_eq_reluProj, Cert.ReferenceIdeal.Gcn.val32_eq_affine]
  show reluProj 100000 64 40 (affine 100000 64 (W3 m ρ c (Proc.devRef .tc main_v26)) (W3 m ρ c (Proc.devRef .tc main_v14))
    (W3 m ρ c (Proc.devRef .tc main_v27))) (W3 m ρ c (Proc.devRef .tc main_v10)) (W3 m ρ c (Proc.devRef .tc main_arg5)) = _
  rw [W3_v26, W3_v14, W3_v27, W3_v10, W3_arg5]
  rfl

/-! ## After the third stretch -/

theorem W5_v14 : W5 m ρ c (Proc.devRef .tc main_v14) = Cert.ReferenceIdeal.Read.val_main_v27 (F := Ideal) (A2 m c) := by
  show StableHlo.after hostOps2 (W4 m ρ c) (Proc.devRef .tc main_v14) = _
  after_results
  exact W4_v14 m ρ c

theorem W5_v28_0 : W5 m ρ c (Proc.devRef .tc main_v28_0)
    = Cert.ReferenceIdeal.Read.val_main_v32 (F := Ideal) (A0 m c) (A1 m c) (A2 m c) (A3 m c) (A4 m c) := by
  show StableHlo.after hostOps2 (W4 m ρ c) (Proc.devRef .tc main_v28_0) = _
  after_results
  exact W4_v28_0 m ρ c

set_option maxHeartbeats 1000000 in
/-- Layer 2's aggregated array is the reference's. -/
theorem W5_v39 : W5 m ρ c (Proc.devRef .tc main_v39)
    = Cert.ReferenceIdeal.Read.val_main_v47 (F := Ideal) (A0 m c) (A1 m c) (A2 m c) (A3 m c) (A4 m c) (A5 m c) := by
  show StableHlo.after hostOps2 (W4 m ρ c) (Proc.devRef .tc main_v39) = _
  after_results
  rw [W4_arg1, W4_arg2, W4_v28_1]
  rfl

/-- The second bias as a row [1, 40]. -/
theorem W5_v40 : W5 m ρ c (Proc.devRef .tc main_v40) = Cert.ReferenceIdeal.Read.val_main_v51 (F := Ideal) (A6 m c) := by
  show StableHlo.after hostOps2 (W4 m ρ c) (Proc.devRef .tc main_v40) = _
  after_results
  rw [W4_arg6]
  exact (show _ = shapeCast ⟨2, ![1, 40]⟩ (A6 m c) shapeCasts_S40_S1x40 from rfl).trans
    (Cert.LibLayout.shapeCast_row_eq_broadcastInDim 40 _ shapeCasts_S40_S1x40 Cert.ReferenceIdeal.Gen.bcast_S40_S1x40_1)

end Cert.KernelIdeal.Gcn

end
-- ==== Proof.Region2.lean ====
/-
  The third tiled region: layer 2's finish, 20 points of 5000 node rows each.

  Point t reads rows t·5000 … t·5000 + 4999 of the aggregated array and of the destination-normaliser column and the
  whole bias row, and writes back those rows of m · n_dst + b.  The 20 row ranges tile the 100000 rows, so the output
  array ends at the affine finish of the arrays as the region finds them.
-/
import proofs.«140246_j55113020342885_2_alg».proof.Proof.Gen.KernelIdeal.Frame
import proofs.«140246_j55113020342885_2_alg».proof.Proof.Payload
import proofs.«140246_j55113020342885_2_alg».proof.Proof.Spec
import Idealize.ShloMosaic.Lib.ValueIdx
import Idealize.ShloMosaic.Lib.Pipeline.Value

set_option maxRecDepth 16384

noncomputable section

namespace Cert.KernelIdeal.Gcn

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.GcnSpec

/-- All block offsets inside a staging buffer are zero: every load and store is of the whole block. -/
theorem offs_zero2 : (![0, 0] : Fin 2 → Nat) = fun _ => 0 := funext fun a => by fin_cases a <;> rfl

/-- The block indices of the four windows at a grid point. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

variable (V : (c : Dev nD) → (b : Ref sig .tc) → Buf (Elt Ideal) ((c : Thread nD τ).loc b)) (c : Dev nD)

/-- The aggregated block at point t, row p, is row t·5000 + p of the aggregated array. -/
theorem rd2_agg (t : Fin cfg2.N) (p : Fin 5000) (k : Fin 40) (r : Fin 100000) (hr : r.val = t.val * 5000 + p.val) :
    iblk2 V c 0 t (ix2 p k) = V c main_v39 (ix2 r k) := by
  obtain ⟨e0, e1, -⟩ := idx_facts2 t
  show V c main_v39 (((cfg2.win 0).blk t).view.emb (ix2 p k)) = V c main_v39 (ix2 r k)
  refine congrArg _ (funext fun a => Fin.ext ?_)
  match a with
  | ⟨0, _⟩ => show win2_0.index t (0 : Fin 2) * 5000 + 1 * p.val = r.val; omega
  | ⟨1, _⟩ => show win2_0.index t (1 : Fin 2) * 40 + 1 * k.val = k.val; omega

/-- The destination-normaliser block at point t, row p, is row t·5000 + p of its column. -/
theorem rd2_ndst (t : Fin cfg2.N) (p : Fin 5000) (r : Fin 100000) (hr : r.val = t.val * 5000 + p.val) :
    iblk2 V c 1 t (ix2 p (0 : Fin 1)) = V c main_v14 (ix2 r (0 : Fin 1)) := by
  obtain ⟨-, -, e2, e3, -⟩ := idx_facts2 t
  show V c main_v14 (((cfg2.win 1).blk t).view.emb (ix2 p (0 : Fin 1))) = V c main_v14 (ix2 r (0 : Fin 1))
  refine congrArg _ (funext fun a => Fin.ext ?_)
  match a with
  | ⟨0, _⟩ => show win2_1.index t (0 : Fin 2) * 5000 + 1 * p.val = r.val; omega
  | ⟨1, _⟩ => show win2_1.index t (1 : Fin 2) * 1 + 1 * 0 = 0; omega

/-- The bias block at every point is the whole bias row. -/
theorem rd2_bias (t : Fin cfg2.N) (j : Fin 40) :
    iblk2 V c 2 t (ix2 (0 : Fin 1) j) = V c main_v40 (ix2 (0 : Fin 1) j) := by
  obtain ⟨-, -, -, -, e4, e5, -⟩ := idx_facts2 t
  show V c main_v40 (((cfg2.win 2).blk t).view.emb (ix2 (0 : Fin 1) j)) = V c main_v40 (ix2 (0 : Fin 1) j)
  refine congrArg _ (funext fun a => Fin.ext ?_)
  match a with
  | ⟨0, _⟩ => show win2_2.index t (0 : Fin 2) * 1 + 1 * 0 = 0; omega
  | ⟨1, _⟩ => show win2_2.index t (1 : Fin 2) * 40 + 1 * j.val = j.val; omega

/-- Element (p, j) of the output block at point t sits at (t·5000 + p, j) of the output array. -/
theorem emb2_out (t : Fin cfg2.N) (p : Fin 5000) (j : Fin 40) (r : Fin 100000) (hr : r.val = t.val * 5000 + p.val) :
    ((cfg2.win 3).blk t).view.emb (ix2 p j) = ix2 r j := by
  obtain ⟨-, -, -, -, -, -, e6, e7⟩ := idx_facts2 t
  refine funext fun a => Fin.ext ?_
  match a with
  | ⟨0, _⟩ => show win2_3.index t (0 : Fin 2) * 5000 + 1 * p.val = r.val; omega
  | ⟨1, _⟩ => show win2_3.index t (1 : Fin 2) * 40 + 1 * j.val = j.val; omega

/-- What point t writes back is its rows of the affine finish of the arrays as the region finds them. -/
theorem flushed2 (t : Fin cfg2.N) :
    (dat2 V c).flushed 3 t
      = ((cfg2.win 3).blk t).view.read (Elt Ideal) (affine 100000 40 (V c main_v39) (V c main_v14) (V c main_v40)) := by
  show (cfg2.win 3).cut (grid2.coords t) ((dat2 V c).after 3 t) = _
  rw [after2_3]
  unfold out2_3
  rw [View.canon_unit_zero offs_zero2]
  simp only [View.ld_unit_zero (S := S5000x40) offs_zero2, View.ld_unit_zero (S := S5000x1) offs_zero2,
    View.ld_unit_zero (S := S1x40) offs_zero2]
  funext y
  obtain ⟨p, j, rfl⟩ : ∃ (p : Fin 5000) (j : Fin 40), y = ix2 p j := ⟨y 0, y 1, eq_ix2 y⟩
  have ht : t.val < 20 := lt_of_lt_of_eq t.isLt N_2
  obtain ⟨r, hr⟩ : ∃ r : Fin 100000, r.val = t.val * 5000 + p.val := ⟨⟨t.val * 5000 + p.val, by omega⟩, rfl⟩
  show k2_pay1 (iblk2 V c 0 t) (iblk2 V c 1 t) (iblk2 V c 2 t) (ix2 p j)
    = affine 100000 40 (V c main_v39) (V c main_v14) (V c main_v40) (((cfg2.win 3).blk t).view.emb (ix2 p j))
  rw [emb2_out t p j r hr]
  refine (finish2_apply (iblk2 V c 0 t) (iblk2 V c 1 t) (iblk2 V c 2 t) p j).trans ?_
  unfold affine
  rw [rd2_agg V c t p j r hr, rd2_ndst V c t p r hr, rd2_bias V c t j]

/-- An index of the output array is in point t's block iff its row is among the point's 5000. -/
theorem mem_blk2 (t : Fin cfg2.N) (i : S100000x40.Idx) :
    i ∈ ((cfg2.win 3).blk t).view.set ↔ ∀ a : Fin 2, win2_3.index t a * S5000x40.size a ≤ (i a).val
      ∧ (i a).val < win2_3.index t a * S5000x40.size a + S5000x40.size a := by
  show i ∈ ((View.whole main_v41).slice (win2_3.rect t)).set ↔ _
  rw [View.set_slice_whole, Rect.mem_set_unit]
  exact Iff.rfl

/-- The 20 blocks tile the output: row i0 is in the block of point i0 / 5000. -/
theorem cover2 (i : S100000x40.Idx) :
    ∃ t : Fin cfg2.N, (cfg2.win 3).flush t = true ∧ i ∈ ((cfg2.win 3).blk t).view.set := by
  have hi0 : (i 0).val < 100000 := (i 0).isLt
  have hi1 : (i 1).val < 40 := (i 1).isLt
  obtain ⟨t, htv⟩ : ∃ t : Fin cfg2.N, t.val = (i 0).val / 5000 :=
    ⟨⟨(i 0).val / 5000, lt_of_lt_of_eq (show (i 0).val / 5000 < 20 by omega) N_2.symm⟩, rfl⟩
  obtain ⟨-, -, -, -, -, -, e6, e7⟩ := idx_facts2 t
  refine ⟨t, flush2_3 t, ?_⟩
  rw [mem_blk2]
  intro a
  match a with
  | ⟨0, _⟩ =>
    show win2_3.index t (0 : Fin 2) * 5000 ≤ (i 0).val ∧ (i 0).val < win2_3.index t (0 : Fin 2) * 5000 + 5000
    omega
  | ⟨1, _⟩ =>
    show win2_3.index t (1 : Fin 2) * 40 ≤ (i 1).val ∧ (i 1).val < win2_3.index t (1 : Fin 2) * 40 + 40
    omega

/-- After the region the output array is the affine finish of the arrays the region was entered with. -/
theorem final2 : (dat2 V c).arrAt 3 cfg2.N = affine 100000 40 (V c main_v39) (V c main_v14) (V c main_v40) :=
  (dat2 V c).arrAt_eq_of_cover 3 _ (fun t _ => flushed2 V c t) cover2

end Cert.KernelIdeal.Gcn

end
-- ==== Proof.Stage3.lean ====
/-
  The two results after the third tiled region.

  The region's output is the affine finish of layer 2 — the reference's first result — and it leaves the pre-activation
  array, which it does not touch, at the reference's second result.
-/
import proofs.«140246_j55113020342885_2_alg».proof.Proof.Gen.KernelIdeal.Frame
import proofs.«140246_j55113020342885_2_alg».proof.Proof.Gen.ReferenceIdeal.Read
import Idealize.ShloMosaic.Lib.StableHlo.Run
import Idealize.ShloMosaic.Lib.ValueIdx
import proofs.«140246_j55113020342885_2_alg».proof.Proof.Stage2
import proofs.«140246_j55113020342885_2_alg».proof.Proof.Region2
set_option maxRecDepth 16384

noncomputable section

namespace Cert.KernelIdeal.Gcn

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg) (c : Dev nD)

open Cert.GcnSpec

/-- The layer-2 output is the reference's first result. -/
theorem W6_v41 : W6 m ρ c (Proc.devRef .tc main_v41)
    = Cert.ReferenceIdeal.Read.val_main_v53 (F := Ideal) (A0 m c) (A1 m c) (A2 m c) (A3 m c) (A4 m c) (A5 m c) (A6 m c) := by
  refine (W6_arr m ρ c 3).trans ((final2 (V5 m ρ) c).trans ?_)
  rw [Cert.ReferenceIdeal.Gcn.val53_eq_affine]
  show affine 100000 40 (W5 m ρ c (Proc.devRef .tc main_v39)) (W5 m ρ c (Proc.devRef .tc main_v14))
    (W5 m ρ c (Proc.devRef .tc main_v40)) = _
  rw [W5_v39, W5_v14, W5_v40]
  rfl

/-- The pre-activation array is no window of the third region. -/
theorem W6_v28_0 : W6 m ρ c (Proc.devRef .tc main_v28_0)
    = Cert.ReferenceIdeal.Read.val_main_v32 (F := Ideal) (A0 m c) (A1 m c) (A2 m c) (A3 m c) (A4 m c) :=
  (W6_of_ne m ρ c main_v28_0 (by decide)).trans (W5_v28_0 m ρ c)

end Cert.KernelIdeal.Gcn

end
-- ==== Proof.lean ====
/-
  A two-layer graph convolution, tiled for the accelerator, against its plain array-language reference: the two
  programs are equal on the extended reals.

  With N = 100000 nodes and 1.6 million directed edges (src[e] → dst[e]), write n_src[i] and n_dst[i] for the
  reciprocal square roots of node i's out- and in-degree, each degree clamped below by one.  A layer maps node features
  X to  agg((X · n_src) W) · n_dst + b,  where agg sums, for each node, the rows gathered at the sources of its incoming
  edges; the program returns layer 2 applied to the rectified output of layer 1, together with layer 1's output.

  The tiled program runs the dense parts in three regions of 20, 25 and 20 row blocks — the projection of layer 1; the
  finish of layer 1 fused with the projection of layer 2; the finish of layer 2 — and leaves the degree sums and the
  two aggregations to the same host operations, on the same index arrays, as the reference uses.  Reading both programs
  on the extended reals, where a change of float format is the identity and a matrix product is the plain sum of
  products, each region's output array is one whole-array function of the region's inputs (Region0–2 over Spec), the
  reference's dense stages are the same functions (RefStages), the normaliser columns and bias rows agree because a
  reshape that adds a unit axis is the corresponding broadcast, and the aggregations agree because equal arrays are
  aggregated (Host0, Stage1–3).  No distributive or cancellation law is used, so the finiteness of the inputs is never
  needed; the ideal pass rewrote nothing, so the word-level program's idealization claim is trivial.
-/
import proofs.«140246_j55113020342885_2_alg».proof.Defs
import proofs.«140246_j55113020342885_2_alg».proof.Proof.Gen.Kernel
import proofs.«140246_j55113020342885_2_alg».proof.Proof.Gen.Kernel.Skeleton
import proofs.«140246_j55113020342885_2_alg».proof.Proof.Gen.Kernel.Launch
import proofs.«140246_j55113020342885_2_alg».proof.Proof.Gen.Kernel.Points
import proofs.«140246_j55113020342885_2_alg».proof.Proof.Gen.Kernel.Frame
import proofs.«140246_j55113020342885_2_alg».proof.Proof.Gen.KernelIdeal
import proofs.«140246_j55113020342885_2_alg».proof.Proof.Gen.KernelIdeal.Skeleton
import proofs.«140246_j55113020342885_2_alg».proof.Proof.Gen.KernelIdeal.Launch
import proofs.«140246_j55113020342885_2_alg».proof.Proof.Gen.KernelIdeal.Points
import proofs.«140246_j55113020342885_2_alg».proof.Proof.Gen.KernelIdeal.Frame
import proofs.«140246_j55113020342885_2_alg».proof.Proof.Gen.ReferenceIdeal
import proofs.«140246_j55113020342885_2_alg».proof.Proof.Gen.Pre_finite_inputs
import proofs.«140246_j55113020342885_2_alg».proof.Proof.Gen.ReferenceIdeal.Run
import proofs.«140246_j55113020342885_2_alg».proof.Proof.Gen.ReferenceIdeal.Read
import proofs.«140246_j55113020342885_2_alg».proof.Proof.RunVals
import proofs.«140246_j55113020342885_2_alg».proof.Proof.Stage3
import Idealize.ShloMosaic.Adequacy
import Idealize.ShloMosaic.Init

noncomputable section

namespace Cert.Proof

open Idealize.ShloMosaic Idealize.SL.Sem Cert.KernelIdeal.Gcn

/-- The word-level program runs and keeps its arguments. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- The reference runs and keeps its arguments: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- From memories that agree on the seven arguments both programs end with the layer-2 output at the reference's last
    stage of the arguments and the layer-1 pre-activation at its affine stage. -/
theorem algebraic : Cert.algebraic_KernelIdeal_ReferenceIdeal := by
  intro m ρ m' ρ' _ hagree
  refine ⟨fun c => Cert.ReferenceIdeal.Read.val_main_v53 (F := Ideal) (A0 m c) (A1 m c) (A2 m c) (A3 m c) (A4 m c) (A5 m c) (A6 m c),
    fun c => Cert.ReferenceIdeal.Read.val_main_v32 (F := Ideal) (A0 m c) (A1 m c) (A2 m c) (A3 m c) (A4 m c), ?_, ?_⟩
  · refine (θ_run Cert.KernelIdeal.defs _ _).mono (fun r h c => ?_) (run_vals (F := Ideal) m ρ)
    obtain ⟨h1, h2, hargs⟩ := h c
    exact ⟨h1.trans (W6_v41 m ρ c), h2.trans (W6_v28_0 m ρ c), hargs⟩
  · refine (θ_run Cert.ReferenceIdeal.defs _ _).mono (fun r h c => ?_) (Cert.ReferenceIdeal.Value.run (F := Ideal) m' ρ')
    obtain ⟨h1, h2, hargs⟩ := h c
    refine ⟨h1.trans ?_, h2.trans ?_, hargs⟩
    · rw [Cert.ReferenceIdeal.Read.val_main_v53_eq, (hagree c).1, (hagree c).2.1, (hagree c).2.2.1, (hagree c).2.2.2.1, (hagree c).2.2.2.2.1, (hagree c).2.2.2.2.2.1, (hagree c).2.2.2.2.2.2]
    · rw [(hagree c).1, (hagree c).2.1, (hagree c).2.2.1, (hagree c).2.2.2.1, (hagree c).2.2.2.2.1]
      exact Cert.ReferenceIdeal.Read.val_main_v32_eq _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
